-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x5 : Shape := ⟨2, ![1024, 5]⟩
abbrev S1024x2 : Shape := ⟨2, ![1024, 2]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x5 : S_.BroadcastsInDim S1024x5 (![] : Fin 0 → Fin S1024x5.rank)
  reducesTo_S1024x5_S_d0_1 : S1024x5.ReducesTo [0, 1] S_
  bcast_S_S1024x2 : S_.BroadcastsInDim S1024x2 (![] : Fin 0 → Fin S1024x2.rank)
  reducesTo_S1024x2_S_d0_1 : S1024x2.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8192x1024 .f32) (main_arg1 : FVec F S1024x5 .f32) (main_arg2 : FVec F S1024x2 .f32) (main_arg3 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x5 .f32 := Host.absf main_arg1
  let main_cst_0 : FVec F S_ .f32 := constant S_ .f32 0x7F800000#32
  let main_v5 : FVec F S1024x5 .f32 := broadcastInDim S1024x5 ![] bcast_S_S1024x5 main_cst_0
  let main_v6 : IVec S1024x5 1 := cmpf .olt main_v4 main_v5
  let main_c_1 : IVec S_ 1 := constantI S_ 1 1#1
  let main_v7 : IVec S_ 1 := (fun x v => Host.reduce IntOp.andi x v reducesTo_S1024x5_S_d0_1 h_S_) main_v6 main_c_1
  let main_v8 : IVec S_ 1 := andi main_v3 main_v7
  let main_v9 : FVec F S1024x2 .f32 := Host.absf main_arg2
  let main_cst_2 : FVec F S_ .f32 := constant S_ .f32 0x7F800000#32
  let main_v10 : FVec F S1024x2 .f32 := broadcastInDim S1024x2 ![] bcast_S_S1024x2 main_cst_2
  let main_v11 : IVec S1024x2 1 := cmpf .olt main_v9 main_v10
  let main_c_3 : IVec S_ 1 := constantI S_ 1 1#1
  let main_v12 : IVec S_ 1 := (fun x v => Host.reduce IntOp.andi x v reducesTo_S1024x2_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8192x1024 : Shape := ⟨2, ![8192, 1024]⟩
abbrev S1024x5 : Shape := ⟨2, ![1024, 5]⟩
abbrev S1024x2 : Shape := ⟨2, ![1024, 2]⟩
abbrev S1024 : Shape := ⟨1, ![1024]⟩
abbrev S5x1024 : Shape := ⟨2, ![5, 1024]⟩
abbrev S2x1024 : Shape := ⟨2, ![2, 1024]⟩
abbrev S1x1024 : Shape := ⟨2, ![1, 1024]⟩
abbrev S512x1024 : Shape := ⟨2, ![512, 1024]⟩
abbrev S4x1024 : Shape := ⟨2, ![4, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5, .f32⟩
  | .hbm, ⟨2, _⟩ => ⟨S1024x2, .f32⟩
  | .hbm, ⟨3, _⟩ => ⟨S1024, .f32⟩
  | .hbm, ⟨4, _⟩ => ⟨S5x1024, .f32⟩
  | .hbm, ⟨5, _⟩ => ⟨S2x1024, .f32⟩
  | .hbm, ⟨6, _⟩ => ⟨S1x1024, .f32⟩
  | .hbm, ⟨7, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S5x1024, .f32⟩
  | .local _ .vmem, ⟨3, _⟩ => ⟨S2x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S1024x5_S5x1024_1_0 : S1024x5.Transposes [1, 0] S5x1024
  transposes_S1024x2_S2x1024_1_0 : S1024x2.Transposes [1, 0] S2x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S5x1024_S5x1024_0_0 : ∀ a, (![0, 0] : Fin 2 → Nat) a + S5x1024.size a ≤ S5x1024.size a
  h_S5x1024 : 0 < S5x1024.numel
  shapeCasts_S5x1024_S5x1024 : S5x1024.ShapeCasts S5x1024
  slices_S5x1024_o0_0_S4x1024 : S5x1024.Slices ![0, 0] S4x1024
  slices_S5x1024_o1_0_S4x1024 : S5x1024.Slices ![1, 0] S4x1024
  slices_S4x1024_o0_0_S1x1024 : S4x1024.Slices ![0, 0] S1x1024
  shapeCasts_S1x1024_S1x1024 : S1x1024.ShapeCasts S1x1024
  broadcasts_S1x1024_S512x1024 : S1x1024.Broadcasts S512x1024
  slices_S4x1024_o1_0_S1x1024 : S4x1024.Slices ![1, 0] S1x1024
  slices_S4x1024_o2_0_S1x1024 : S4x1024.Slices ![2, 0] S1x1024
  slices_S4x1024_o3_0_S1x1024 : S4x1024.Slices ![3, 0] S1x1024
  inb_S2x1024_S2x1024_0_0 : ∀ a, (![0, 0] : Fin 2 → Nat) a + S2x1024.size a ≤ S2x1024.size a
  h_S2x1024 : 0 < S2x1024.numel
  shapeCasts_S2x1024_S2x1024 : S2x1024.ShapeCasts S2x1024
  slices_S2x1024_o0_0_S1x1024 : S2x1024.Slices ![0, 0] S1x1024
  slices_S2x1024_o1_0_S1x1024 : S2x1024.Slices ![1, 0] S1x1024
  inb_S1x1024_S1x1024_0_0 : ∀ a, (![0, 0] : Fin 2 → Nat) a + S1x1024.size a ≤ S1x1024.size a
  h_S1x1024 : 0 < S1x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x1024.size a ≤ S5x1024.size a
  hwx0_1 : ∀ i : grid0.Coords, EltTy.bits .f32 = 32 ∨ (Rect.block (s := S5x1024) S5x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x1024.size a ≤ S2x1024.size a
  hwx0_2 : ∀ i : grid0.Coords, EltTy.bits .f32 = 32 ∨ (Rect.block (s := S2x1024) S2x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .f32 = 32 ∨ (Rect.block (s := S8192x1024) S512x1024.size (cc0_transform_4 i) (hinb0_4 i)).WholeWords (EltTy.packing .f32)

variable [Facts₀]

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x5 : Shape := ⟨2, ![1024, 5]⟩
abbrev S1024x2 : Shape := ⟨2, ![1024, 2]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S8192x1024x1 : Shape := ⟨3, ![8192, 1024, 1]⟩
abbrev S8192x1024x2 : Shape := ⟨3, ![8192, 1024, 2]⟩

abbrev nBuf : Space → Nat
  | .hbm => 134
  | .vmem => 0
  | .smem => 0
  | _ => 0

abbrev hbmTy0_0 (i : Nat) : BufTy := match i % 128 with
  | 0 => ⟨S8192x1024, .f32⟩
  | 1 => ⟨S1024x5, .f32⟩
  | 2 => ⟨S1024x2, .f32⟩
  | 3 => ⟨S1024, .f32⟩
  | 4 => ⟨S1024, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S1024, .i32⟩
  | 12 => ⟨S1024, .i32⟩
  | 13 => ⟨S_, .i32⟩
  | 14 => ⟨S1024, .i32⟩
  | 15 => ⟨S1024, .i1⟩
  | 16 => ⟨S_, .i32⟩
  | 17 => ⟨S1024, .i32⟩
  | 18 => ⟨S1024, .i1⟩
  | 19 => ⟨S_, .i32⟩
  | 20 => ⟨S_, .i1⟩
  | 21 => ⟨S1024, .i1⟩
  | 22 => ⟨S1024, .i1⟩
  | 23 => ⟨S1024, .i1⟩
  | 24 => ⟨S1024, .i32⟩
  | 25 => ⟨S1024, .i32⟩
  | 26 => ⟨S1024, .i32⟩
  | 27 => ⟨S_, .i32⟩
  | 28 => ⟨S1024, .i32⟩
  | 29 => ⟨S1024, .i1⟩
  | 30 => ⟨S_, .i32⟩
  | 31 => ⟨S1024, .i32⟩
  | 32 => ⟨S1024, .i32⟩
  | 33 => ⟨S1024, .i32⟩
  | 34 => ⟨S1024x1, .i32⟩
  | 35 => ⟨S8192x1024, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S_, .f32⟩
  | 42 => ⟨S8192x1024, .f32⟩
  | 43 => ⟨S8192x1024, .f32⟩
  | 44 => ⟨S8192x1024, .f32⟩
  | 45 => ⟨S_, .f32⟩
  | 46 => ⟨S_, .f32⟩
  | 47 => ⟨S_, .f32⟩
  | 48 => ⟨S8192x1024, .f32⟩
  | 49 => ⟨S8192x1024, .f32⟩
  | 50 => ⟨S_, .f32⟩
  | 51 => ⟨S8192x1024, .f32⟩
  | 52 => ⟨S8192x1024, .f32⟩
  | 53 => ⟨S_, .f32⟩
  | 54 => ⟨S8192x1024, .f32⟩
  | 55 => ⟨S8192x1024, .f32⟩
  | 56 => ⟨S_, .f32⟩
  | 57 => ⟨S8192x1024, .f32⟩
  | 58 => ⟨S8192x1024, .f32⟩
  | 59 => ⟨S8192x1024, .f32⟩
  | 60 => ⟨S_, .i32⟩
  | 61 => ⟨S_, .i32⟩
  | 62 => ⟨S_, .f32⟩
  | 63 => ⟨S8192x1024, .f32⟩
  | 64 => ⟨S8192x1024, .f32⟩
  | 65 => ⟨S_, .f32⟩
  | 66 => ⟨S8192x1024, .f32⟩
  | 67 => ⟨S8192x1024, .f32⟩
  | 68 => ⟨S8192x1024, .i32⟩
  | 69 => ⟨S8192x1024, .f32⟩
  | 70 => ⟨S8192x1024, .f32⟩
  | 71 => ⟨S1024, .i32⟩
  | 72 => ⟨S1x1024, .i32⟩
  | 73 => ⟨S_, .i32⟩
  | 74 => ⟨S1x1024, .i32⟩
  | 75 => ⟨S1x1024, .i1⟩
  | 76 => ⟨S_, .i32⟩
  | 77 => ⟨S1x1024, .i32⟩
  | 78 => ⟨S1x1024, .i32⟩
  | 79 => ⟨S1x1024, .i32⟩
  | 80 => ⟨S_, .i32⟩
  | 81 => ⟨S8192x1024, .i32⟩
  | 82 => ⟨S8192x1024, .i1⟩
  | 83 => ⟨S_, .i32⟩
  | 84 => ⟨S8192x1024, .i32⟩
  | 85 => ⟨S8192x1024, .i32⟩
  | 86 => ⟨S8192x1024, .i32⟩
  | 87 => ⟨S8192x1024, .i32⟩
  | 88 => ⟨S8192x1024x1, .i32⟩
  | 89 => ⟨S8192x1024x1, .i32⟩
  | 90 => ⟨S8192x1024x2, .i32⟩
  | 91 => ⟨S8192x1024, .f32⟩
  | 92 => ⟨S_, .i32⟩
  | 93 => ⟨S8192x1024, .i32⟩
  | 94 => ⟨S8192x1024, .i32⟩
  | 95 => ⟨S_, .i32⟩
  | 96 => ⟨S1x1024, .i32⟩
  | 97 => ⟨S1x1024, .i1⟩
  | 98 => ⟨S_, .i32⟩
  | 99 => ⟨S1x1024, .i32⟩
  | 100 => ⟨S1x1024, .i32⟩
  | 101 => ⟨S1x1024, .i32⟩
  | 102 => ⟨S_, .i32⟩
  | 103 => ⟨S8192x1024, .i32⟩
  | 104 => ⟨S8192x1024, .i1⟩
  | 105 => ⟨S_, .i32⟩
  | 106 => ⟨S8192x1024, .i32⟩
  | 107 => ⟨S8192x1024, .i32⟩
  | 108 => ⟨S8192x1024, .i32⟩
  | 109 => ⟨S8192x1024, .i32⟩
  | 110 => ⟨S8192x1024x1, .i32⟩
  | 111 => ⟨S8192x1024x1, .i32⟩
  | 112 => ⟨S8192x1024x2, .i32⟩
  | 113 => ⟨S8192x1024, .f32⟩
  | 114 => ⟨S_, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S1024x1, .f32⟩
  | 121 => ⟨S1024, .f32⟩
  | 122 => ⟨S1x1024, .f32⟩
  | 123 => ⟨S8192x1024, .f32⟩
  | 124 => ⟨S8192x1024, .f32⟩
  | 125 => ⟨S1024x1, .f32⟩
  | 126 => ⟨S1024, .f32⟩
  | 127 => ⟨S1x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S1x1024, .f32⟩
  | 4 => ⟨S8192x1024, .f32⟩
  | 5 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_c_1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v9 : Ref sig .tc := ⟨.hbm, 44, rfl⟩
abbrev main_cst : Ref sig .tc := ⟨.hbm, 45, rfl⟩
abbrev main_cst_2 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v10 : Ref sig .tc := ⟨.hbm, 52, rfl⟩
abbrev main_cst_3 : Ref sig .tc := ⟨.hbm, 53, rfl⟩
abbrev main_v11 : Ref sig .tc := ⟨.hbm, 54, rfl⟩
abbrev main_v12 : Ref sig .tc := ⟨.hbm, 55, rfl⟩
abbrev main_cst_4 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_c_5 : Ref sig .tc := ⟨.hbm, 60, rfl⟩
abbrev main_c_6 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_c_7 : Ref sig .tc := ⟨.hbm, 73, rfl⟩
abbrev main_v22 : Ref sig .tc := ⟨.hbm, 74, rfl⟩
abbrev main_v23 : Ref sig .tc := ⟨.hbm, 75, rfl⟩
abbrev main_c_8 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_c_9 : Ref sig .tc := ⟨.hbm, 80, rfl⟩
abbrev main_v27 : Ref sig .tc := ⟨.hbm, 81, rfl⟩
abbrev main_v28 : Ref sig .tc := ⟨.hbm, 82, rfl⟩
abbrev main_c_10 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_c_11 : Ref sig .tc := ⟨.hbm, 92, rfl⟩
abbrev main_v37 : Ref sig .tc := ⟨.hbm, 93, rfl⟩
abbrev main_v38 : Ref sig .tc := ⟨.hbm, 94, rfl⟩
abbrev main_c_12 : Ref sig .tc := ⟨.hbm, 95, rfl⟩
abbrev main_v39 : Ref sig .tc := ⟨.hbm, 96, rfl⟩
abbrev main_v40 : Ref sig .tc := ⟨.hbm, 97, rfl⟩
abbrev main_c_13 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_c_14 : Ref sig .tc := ⟨.hbm, 102, rfl⟩
abbrev main_v44 : Ref sig .tc := ⟨.hbm, 103, rfl⟩
abbrev main_v45 : Ref sig .tc := ⟨.hbm, 104, rfl⟩
abbrev main_c_15 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_cst_16 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S8192x1024 : S_.BroadcastsInDim S8192x1024 (![] : Fin 0 → Fin S8192x1024.rank)
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S8192x1024_0_1 : S1x1024.BroadcastsInDim S8192x1024 (![0, 1] : Fin 2 → Fin S8192x1024.rank)
  bcast_S8192x1024_S8192x1024x1_0_1 : S8192x1024.BroadcastsInDim S8192x1024x1 (![0, 1] : Fin 2 → Fin S8192x1024x1.rank)
  concatenates_S8192x1024x1_S8192x1024x1_S8192x1024x2_d2 : Shape.Concatenates [S8192x1024x1, S8192x1024x1] S8192x1024x2 2
  slices_S1024x2_S1024x1_0_0 : S1024x2.Slices ![0, 0] S1024x1
  shapeCasts_S1024x1_S1024 : S1024x1.ShapeCasts S1024
  slices_S1024x2_S1024x1_0_1 : S1024x2.Slices ![0, 1] S1024x1
  gather_S8192x1024_S1024x1_S8192x1024_0_1_n_n_1_1_81921_wf : GatherDims.WF S8192x1024 S1024x1 S8192x1024 [0] [1] [] [1] [] 1 ![8192, 1]
  gather_S1024x5_S8192x1024x2_S8192x1024_n_01_n_n_01_2_11_wf : GatherDims.WF S1024x5 S8192x1024x2 S8192x1024 [] [0, 1] [] [0, 1] [] 2 ![1, 1]

variable [Facts₀]

def gather_S8192x1024_S1024x1_S8192x1024_0_1_n_n_1_1_81921 : GatherDims S8192x1024 S1024x1 S8192x1024 where
  offsetDims := [0]
  collapsedSliceDims := [1]
  operandBatchingDims := []
  startIndicesBatchingDims := []
  startIndexMap := [1]
  indexVectorDim := 1
  sliceSizes := ![8192, 1]
  wf := gather_S8192x1024_S1024x1_S8192x1024_0_1_n_n_1_1_81921_wf
def gather_S1024x5_S8192x1024x2_S8192x1024_n_01_n_n_01_2_11 : GatherDims S1024x5 S8192x1024x2 S8192x1024 where
  offsetDims := []
  collapsedSliceDims := [0, 1]
  operandBatchingDims := []
  startIndicesBatchingDims := []
  startIndexMap := [0, 1]
  indexVectorDim := 2
  sliceSizes := ![1, 1]
  wf := gather_S1024x5_S8192x1024x2_S8192x1024_n_01_n_n_01_2_11_wf

class Facts : Prop extends Facts₀ where

variable [Facts]
-- ==== Proof.LibGatherAxis0.lean ====
/-
  `stablehlo.gather` along axis 0 at one column of start indices, read at an index.

  What `x[idx]` lowers to when `idx : [E]` is viewed as `[E, 1]` (index_vector_dim 1): for a flat table
  `x : [N]` the result `[E]` (no offset axis), for a table of rows `x : [N, D]` the result `[E, D]`
  (offset axis 1, whole rows: slice sizes `[1, D]`). In both, result entry `e` (and column `k`) is the table at
  the row `idx[e, 0]` read as a signed integer and clamped into `[0, N - 1]` (and at column `k`).
-/
import Idealize.ShloMosaic.Lib.ValueIdx

noncomputable section

namespace Idealize.ShloMosaic.GatherAxis0

open Idealize.ShloMosaic Idealize.ShloMosaic.ValueIdx

variable {α : Type}

/-- The row of a table of `n` rows a start index reads: the word read signed, clamped into `[0, n - 1]`. -/
def row {w : Nat} (n : Nat) (hn : 0 < n) (x : BitVec w) : Fin n := ⟨min x.toInt.toNat (n - 1), by omega⟩

/-- The start-indices index `[e, 0]` of the result's row `e`. -/
abbrev colIdx {E : Nat} (e : Fin E) : (⟨2, ![E, 1]⟩ : Shape).Idx := ix2 e (⟨0, Nat.one_pos⟩ : Fin 1)

/-- The dimension numbers of a flat table `[N]` gathered at start indices `[E, 1]` into `[E]`. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the table at the start index `idx[e, 0]`, read signed and clamped into `[0, N - 1]`. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (flatDims N E wf) x idx y = x (ix1 (row N hN (idx (colIdx (y 0))))) := by
  unfold Host.gather
  congr 1
  funext a
  obtain rfl : a = 0 := Subsingleton.elim _ _
  refine Fin.ext ?_
  show (flatDims N E wf).start y idx 0 + (flatDims N E wf).batchCoord y 0 + (flatDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx y ⟨List.idxOf (0 : Fin 1) (flatDims N E wf).startIndexMap,
      List.idxOf_lt_length_iff.2 (List.mem_singleton.mpr rfl)⟩ = colIdx (y 0) := by
    funext b; refine Fin.ext ?_
    match b with
    | ⟨0, _⟩ => rfl
    | ⟨1, _⟩ => rfl
  rw [hsi]
  rfl

/-- The dimension numbers of a table of rows `[N, D]` gathered whole-row at start indices `[E, 1]` into `[E, D]`. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, k)`: the table at the row `idx[e, 0]`, read signed and clamped into `[0, N - 1]`,
    and column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowDims N D E wf) x idx (ix2 e k)
      = x (ix2 (row N hN (idx (colIdx e))) k) := by
  unfold Host.gather
  congr 1
  funext a
  refine Fin.ext ?_
  match a with
  | ⟨0, _⟩ =>
    show (rowDims N D E wf).start (ix2 e k) idx 0 + (rowDims N D E wf).batchCoord (ix2 e k) 0
      + (rowDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e k) ⟨List.idxOf (0 : Fin 2) (rowDims N D E wf).startIndexMap,
        List.idxOf_lt_length_iff.2 (List.mem_singleton.mpr rfl)⟩ = colIdx e := by
      funext b; refine Fin.ext ?_
      match b with
      | ⟨0, _⟩ => rfl
      | ⟨1, _⟩ => rfl
    rw [hsi]
    rfl
  | ⟨1, _⟩ =>
    show (rowDims N D E wf).start (ix2 e k) idx 1 + (rowDims N D E wf).batchCoord (ix2 e k) 1
      + (rowDims N D E wf).offCoord (ix2 e k) 1 = k.val
    rw [GatherDims.batchCoord_eq_zero _ _ _ List.not_mem_nil]
    unfold GatherDims.start
    rw [dif_neg (show (1 : Fin 2) ∉ (rowDims N D E wf).startIndexMap from
      fun h => absurd (List.mem_singleton.mp h) (show ¬ (1 : Fin 2) = 0 by decide))]
    simp only [Nat.add_zero, Nat.zero_add]
    unfold GatherDims.offCoord
    rw [dif_pos (show (1 : Fin 2) ∈ (rowDims N D E wf).sKept from
      (GatherDims.mem_sKept _ _).mpr ⟨fun h => absurd (List.mem_singleton.mp h) (show ¬ (1 : Fin 2) = 0 by decide), List.not_mem_nil⟩)]
    rfl

end Idealize.ShloMosaic.GatherAxis0

end
-- ==== Proof.Spec.lean ====
/-
  The mathematics of one entry of a KAN layer with linear B-splines, in the two forms the two programs compute.

  For an input x and one edge's five spline coefficients c₀ … c₄ on the uniform knots -1, -1/2, 0, 1/2, 1
  (spacing h = 1/2), weights w₀, w₁ and bias b, the entry is

      silu(x) · w₀ + spline(x) · w₁ + b,        silu(x) = x · 1 / (1 + e⁻ˣ),

  where, with t = (clip(x, -1, 1) + 1) / h ∈ [0, 4] the grid coordinate, n = min(⌊t⌋, 3) ∈ {0, 1, 2, 3} the knot
  segment and f = t - n the position inside the segment, spline(x) is the linear interpolation between cₙ and
  cₙ₊₁ at f. One program selects cₙ and the difference cₙ₊₁ - cₙ by comparing n against 0, 1, 2, 3 and forms
  cₙ + f · (cₙ₊₁ - cₙ) (`cellK`); the other turns n into an integer, reads cₙ and cₙ₊₁ at that integer and forms
  cₙ · (1 - f) + cₙ₊₁ · f (`cellR`). On real numbers the two agree (`cellR_eq_cellK`): the interpolation identity
  is the distributive law, which the extended reals have only away from the infinities — this is where the
  coefficients (and x) must be finite.
-/
import Idealize.ShloMosaic.PureOps.Ideal
import Idealize.ShloMosaic.Lib.ValueIdx
import proofs.«165169_j1108101562900_2_alg».proof.Proof.LibGatherAxis0

noncomputable section

namespace Cert.Kan

open Idealize.ShloMosaic Idealize.ShloMosaic.ValueIdx

/-! ## The six constants the programs spell, as numbers -/

theorem lit_neg_one : Ideal.ofBits .f32 0xBF800000#32 = ((-1 : ℝ) : EReal) := by
  simp [Ideal.ofBits, Ideal.ieee, -EReal.coe_mul]; norm_num
theorem lit_zero : Ideal.ofBits .f32 0x00000000#32 = ((0 : ℝ) : EReal) := by
  simp [Ideal.ofBits, Ideal.ieee]
theorem lit_half : Ideal.ofBits .f32 0x3F000000#32 = ((1 / 2 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_three : Ideal.ofBits .f32 0x40400000#32 = ((3 : ℝ) : EReal) := by
  simp [Ideal.ofBits, Ideal.ieee, -EReal.coe_mul]; norm_num

/-! ## The grid coordinate and the segment, as the programs compute them -/

/-- The grid coordinate t = (min(1, max(-1, x)) + 1) / (1/2). -/
def tOf (x : EReal) : EReal :=
  Ideal.div (min (Ideal.ofBits .f32 0x3F800000#32) (max (Ideal.ofBits .f32 0xBF800000#32) x) + Ideal.ofBits .f32 0x3F800000#32)
    (Ideal.ofBits .f32 0x3F000000#32)

/-- The segment as a float: min(⌊t⌋, 3). -/
def segOf (x : EReal) : EReal := min (Ideal.liftRound Int.floor (tOf x)) (Ideal.ofBits .f32 0x40400000#32)

/-- The value chosen by comparing the segment k against 3, 2, 1, 0 in turn (zero if it is none of them). -/
def pick (k a3 a2 a1 a0 : EReal) : EReal :=
  Scalar.select (Ideal.cmp .oeq k (Ideal.ofBits .f32 0x40400000#32)) a3
    (Scalar.select (Ideal.cmp .oeq k (Ideal.ofBits .f32 0x40000000#32)) a2
      (Scalar.select (Ideal.cmp .oeq k (Ideal.ofBits .f32 0x3F800000#32)) a1
        (Scalar.select (Ideal.cmp .oeq k (Ideal.ofBits .f32 0x00000000#32)) a0 (Ideal.ofBits .f32 0x00000000#32))))

/-- One entry, selecting the coefficient and the coefficient difference by the segment:
    silu(x) · w₀ + (cₙ + (t - n) · (cₙ₊₁ - cₙ)) · w₁ + b. -/
def cellK (x c0 c1 c2 c3 c4 w0 w1 b : EReal) : EReal :=
  x * Ideal.logistic x * w0
    + (pick (segOf x) c3 c2 c1 c0 + (tOf x - segOf x) * pick (segOf x) (c4 - c3) (c3 - c2) (c2 - c1) (c1 - c0)) * w1
    + b

/-- The segment as a 32-bit integer: ⌊t⌋ clipped into [0, 3] (the bounds given as integers) and converted. -/
def segI (x : EReal) : BitVec 32 :=
  Ideal.fptosi 32 (min ((((3#32 : BitVec 32).toInt : ℝ)) : EReal)
    (max ((((0#32 : BitVec 32).toInt : ℝ)) : EReal) (Ideal.liftRound Int.floor (tOf x))))

/-- The position inside the segment: t minus the integer segment read back as a float. -/
def fracOf (x : EReal) : EReal := tOf x - ((((segI x).toInt : ℝ)) : EReal)

/-- A column number as an index into the five coefficients: a negative one counts from the end. -/
def wrap5 (k : BitVec 32) : BitVec 32 := Scalar.select (IntOp.cmpi .slt k 0#32) (IntOp.addi k 5#32) k

/-- One entry, reading the two coefficients at the integer segment:
    x · (1 / (1 + e⁻ˣ)) · w₀ + (cₙ · (1 - f) + cₙ₊₁ · f) · w₁ + b. -/
def cellR (x : EReal) (cr : Fin 5 → EReal) (w0 w1 b : EReal) : EReal :=
  x * Ideal.div (Ideal.ofBits .f32 0x3F800000#32) (Ideal.ofBits .f32 0x3F800000#32 + Ideal.exp (-x)) * w0
    + (cr (GatherAxis0.row 5 (by decide) (wrap5 (segI x))) * (Ideal.ofBits .f32 0x3F800000#32 - fracOf x)
        + cr (GatherAxis0.row 5 (by decide) (wrap5 (IntOp.addi (segI x) 1#32))) * fracOf x) * w1
    + b

/-! ## The layer as one function of the four arrays -/

/-- The column of an index of the 8192 × 1024 array. -/
def colOf (i : (⟨2, ![8192, 1024]⟩ : Shape).Idx) : Fin 1024 := ⟨(i 1).val, idx2_lt1 i⟩

/-- THE LAYER: entry (r, o) is the entry formula at X[r, o], edge o's coefficients C[o, 0 … 4], weights W[o, 0],
    W[o, 1] and bias B[o]. -/
def G (X : (⟨2, ![8192, 1024]⟩ : Shape).Idx → EReal) (C : (⟨2, ![1024, 5]⟩ : Shape).Idx → EReal)
    (W : (⟨2, ![1024, 2]⟩ : Shape).Idx → EReal) (B : (⟨1, ![1024]⟩ : Shape).Idx → EReal) :
    (⟨2, ![8192, 1024]⟩ : Shape).Idx → EReal :=
  fun i => cellK (X i) (C (ix2 (colOf i) (0 : Fin 5))) (C (ix2 (colOf i) (1 : Fin 5))) (C (ix2 (colOf i) (2 : Fin 5)))
    (C (ix2 (colOf i) (3 : Fin 5))) (C (ix2 (colOf i) (4 : Fin 5))) (W (ix2 (colOf i) (0 : Fin 2))) (W (ix2 (colOf i) (1 : Fin 2)))
    (B (ix1 (colOf i)))

theorem G_apply (X : (⟨2, ![8192, 1024]⟩ : Shape).Idx → EReal) (C : (⟨2, ![1024, 5]⟩ : Shape).Idx → EReal)
    (W : (⟨2, ![1024, 2]⟩ : Shape).Idx → EReal) (B : (⟨1, ![1024]⟩ : Shape).Idx → EReal) (r : Fin 8192) (o : Fin 1024) :
    G X C W B (ix2 r o) = cellK (X (ix2 r o)) (C (ix2 o (0 : Fin 5))) (C (ix2 o (1 : Fin 5))) (C (ix2 o (2 : Fin 5)))
      (C (ix2 o (3 : Fin 5))) (C (ix2 o (4 : Fin 5))) (W (ix2 o (0 : Fin 2))) (W (ix2 o (1 : Fin 2))) (B (ix1 o)) := rfl

end Cert.Kan

end
-- ==== Proof.KernelValue.lean ====
/-
  The idealized kernel's result array is the layer function of its four argument arrays.

  The kernel runs on a grid of 16 points; point t stages rows 512·t … 512·t + 511 of X (all 1024 columns), and the
  whole of the three small arrays the host prepared: the coefficients transposed to 5 × 1024, the weights
  transposed to 2 × 1024 and the bias as one row 1 × 1024. The body computes, for the block entry (p, q), the
  entry formula of X-block(p, q), coefficients (0 … 4, q), weights (0, q), (1, q) and bias (0, q), and point t
  writes its block back to rows 512·t … of the result. Reading the transposes and the row back as the argument
  arrays at (q, ·), block t of what is written is block t of the layer function; the 16 blocks tile the 8192 rows,
  so the result array is the layer function.
-/
import proofs.«165169_j1108101562900_2_alg».proof.Proof.KernelIdealValueP
import proofs.«165169_j1108101562900_2_alg».proof.Proof.Spec
import Idealize.ShloMosaic.Lib.Pipeline.Value
import Idealize.ShloMosaic.Lib.StableHlo.Run
import Idealize.ShloMosaic.Lib.ValueIdx

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

theorem hz : (![0, 0] : Fin 2 → Nat) = fun _ => 0 := funext fun a => by fin_cases a <;> rfl

/-! ## Where the body reads each loaded block, at the block entry (p, q) -/

theorem ix_0 (p : Fin 512) (q : Fin 1024) : ValueP.ix4_0 (ix2 p q) = ix2 p q :=
  funext fun a => match a with | ⟨0, _⟩ => rfl | ⟨1, _⟩ => rfl
theorem ix_1 (p : Fin 512) (q : Fin 1024) : ValueP.ix4_1 (ix2 p q) = ix2 p q :=
  funext fun a => match a with | ⟨0, _⟩ => rfl | ⟨1, _⟩ => rfl
theorem ix_2 (p : Fin 512) (q : Fin 1024) : ValueP.ix4_2 (ix2 p q) = ix2 (0 : Fin 2) q :=
  funext fun a => match a with | ⟨0, _⟩ => rfl | ⟨1, _⟩ => rfl
theorem ix_3 (p : Fin 512) (q : Fin 1024) : ValueP.ix4_3 (ix2 p q) = ix2 p q :=
  funext fun a => match a with | ⟨0, _⟩ => rfl | ⟨1, _⟩ => rfl
theorem ix_4 (p : Fin 512) (q : Fin 1024) : ValueP.ix4_4 (ix2 p q) = ix2 (3 : Fin 5) q :=
  funext fun a => match a with | ⟨0, _⟩ => rfl | ⟨1, _⟩ => rfl
theorem ix_5 (p : Fin 512) (q : Fin 1024) : ValueP.ix4_5 (ix2 p q) = ix2 p q :=
  funext fun a => match a with | ⟨0, _⟩ => rfl | ⟨1, _⟩ => rfl
theorem ix_6 (p : Fin 512) (q : Fin 1024) : ValueP.ix4_6 (ix2 p q) = ix2 (2 : Fin 5) q :=
  funext fun a => match a with | ⟨0, _⟩ => rfl | ⟨1, _⟩ => rfl
theorem ix_7 (p : Fin 512) (q : Fin 1024) : ValueP.ix4_7 (ix2 p q) = ix2 p q :=
  funext fun a => match a with | ⟨0, _⟩ => rfl | ⟨1, _⟩ => rfl
theorem ix_8 (p : Fin 512) (q : Fin 1024) : ValueP.ix4_8 (ix2 p q) = ix2 (1 : Fin 5) q :=
  funext fun a => match a with | ⟨0, _⟩ => rfl | ⟨1, _⟩ => rfl
theorem ix_9 (p : Fin 512) (q : Fin 1024) : ValueP.ix4_9 (ix2 p q) = ix2 p q :=
  funext fun a => match a with | ⟨0, _⟩ => rfl | ⟨1, _⟩ => rfl
theorem ix_10 (p : Fin 512) (q : Fin 1024) : ValueP.ix4_10 (ix2 p q) = ix2 (0 : Fin 5) q :=
  funext fun a => match a with | ⟨0, _⟩ => rfl | ⟨1, _⟩ => rfl
theorem ix_11 (p : Fin 512) (q : Fin 1024) : ValueP.ix4_11 (ix2 p q) = ix2 p q :=
  funext fun a => match a with | ⟨0, _⟩ => rfl | ⟨1, _⟩ => rfl
theorem ix_12 (p : Fin 512) (q : Fin 1024) : ValueP.ix4_12 (ix2 p q) = ix2 p q :=
  funext fun a => match a with | ⟨0, _⟩ => rfl | ⟨1, _⟩ => rfl
theorem ix_13 (p : Fin 512) (q : Fin 1024) : ValueP.ix4_13 (ix2 p q) = ix2 p q :=
  funext fun a => match a with | ⟨0, _⟩ => rfl | ⟨1, _⟩ => rfl
theorem ix_14 (p : Fin 512) (q : Fin 1024) : ValueP.ix4_14 (ix2 p q) = ix2 (4 : Fin 5) q :=
  funext fun a => match a with | ⟨0, _⟩ => rfl | ⟨1, _⟩ => rfl
theorem ix_15 (p : Fin 512) (q : Fin 1024) : ValueP.ix4_15 (ix2 p q) = ix2 (3 : Fin 5) q :=
  funext fun a => match a with | ⟨0, _⟩ => rfl | ⟨1, _⟩ => rfl
theorem ix_16 (p : Fin 512) (q : Fin 1024) : ValueP.ix4_16 (ix2 p q) = ix2 p q :=
  funext fun a => match a with | ⟨0, _⟩ => rfl | ⟨1, _⟩ => rfl
theorem ix_17 (p : Fin 512) (q : Fin 1024) : ValueP.ix4_17 (ix2 p q) = ix2 (3 : Fin 5) q :=
  funext fun a => match a with | ⟨0, _⟩ => rfl | ⟨1, _⟩ => rfl
theorem ix_18 (p : Fin 512) (q : Fin 1024) : ValueP.ix4_18 (ix2 p q) = ix2 (2 : Fin 5) q :=
  funext fun a => match a with | ⟨0, _⟩ => rfl | ⟨1, _⟩ => rfl
theorem ix_19 (p : Fin 512) (q : Fin 1024) : ValueP.ix4_19 (ix2 p q) = ix2 p q :=
  funext fun a => match a with | ⟨0, _⟩ => rfl | ⟨1, _⟩ => rfl
theorem ix_20 (p : Fin 512) (q : Fin 1024) : ValueP.ix4_20 (ix2 p q) = ix2 (2 : Fin 5) q :=
  funext fun a => match a with | ⟨0, _⟩ => rfl | ⟨1, _⟩ => rfl
theorem ix_21 (p : Fin 512) (q : Fin 1024) : ValueP.ix4_21 (ix2 p q) = ix2 (1 : Fin 5) q :=
  funext fun a => match a with | ⟨0, _⟩ => rfl | ⟨1, _⟩ => rfl
theorem ix_22 (p : Fin 512) (q : Fin 1024) : ValueP.ix4_22 (ix2 p q) = ix2 p q :=
  funext fun a => match a with | ⟨0, _⟩ => rfl | ⟨1, _⟩ => rfl
theorem ix_23 (p : Fin 512) (q : Fin 1024) : ValueP.ix4_23 (ix2 p q) = ix2 (1 : Fin 5) q :=
  funext fun a => match a with | ⟨0, _⟩ => rfl | ⟨1, _⟩ => rfl
theorem ix_24 (p : Fin 512) (q : Fin 1024) : ValueP.ix4_24 (ix2 p q) = ix2 (0 : Fin 5) q :=
  funext fun a => match a with | ⟨0, _⟩ => rfl | ⟨1, _⟩ => rfl
theorem ix_25 (p : Fin 512) (q : Fin 1024) : ValueP.ix4_25 (ix2 p q) = ix2 (1 : Fin 2) q :=
  funext fun a => match a with | ⟨0, _⟩ => rfl | ⟨1, _⟩ => rfl
theorem ix_26 (p : Fin 512) (q : Fin 1024) : ValueP.ix4_26 (ix2 p q) = ix2 (0 : Fin 1) q :=
  funext fun a => match a with | ⟨0, _⟩ => rfl | ⟨1, _⟩ => rfl

/-- THE BODY AT A BLOCK ENTRY: what one grid point leaves at (p, q) of its output block is the entry formula of the
    input block at (p, q), the five coefficient rows, the two weight rows and the bias row at column q. -/
theorem out_at (x0 : Vec Ideal S512x1024 .f32) (x1 : Vec Ideal S5x1024 .f32) (x2 : Vec Ideal S2x1024 .f32)
    (x3 : Vec Ideal S1x1024 .f32) (p : Fin 512) (q : Fin 1024) :
    out0_4 x0 x1 x2 x3 (ix2 p q)
      = Kan.cellK (x0 (ix2 p q)) (x1 (ix2 (0 : Fin 5) q)) (x1 (ix2 (1 : Fin 5) q)) (x1 (ix2 (2 : Fin 5) q))
          (x1 (ix2 (3 : Fin 5) q)) (x1 (ix2 (4 : Fin 5) q)) (x2 (ix2 (0 : Fin 2) q)) (x2 (ix2 (1 : Fin 2) q))
          (x3 (ix2 (0 : Fin 1) q)) := by
  unfold out0_4
  simp only [View.ld_unit_zero (S := S512x1024) hz, View.ld_unit_zero (S := S5x1024) hz,
    View.ld_unit_zero (S := S2x1024) hz, View.ld_unit_zero (S := S1x1024) hz]
  refine (ValueP.canon4_eq x0 x2 x1 x3 (ix2 p q)).trans ?_
  dsimp only [ValueP.E4]
  simp only [ix_0 p q, ix_1 p q, ix_2 p q, ix_3 p q, ix_4 p q, ix_5 p q, ix_6 p q, ix_7 p q, ix_8 p q, ix_9 p q, ix_10 p q, ix_11 p q, ix_12 p q, ix_13 p q, ix_14 p q, ix_15 p q, ix_16 p q, ix_17 p q, ix_18 p q, ix_19 p q, ix_20 p q, ix_21 p q, ix_22 p q, ix_23 p q, ix_24 p q, ix_25 p q, ix_26 p q]
  rfl

/-! ## The arrays the region finds -/

variable (m : (ℓ : Loc nD τ sig) → Buf (Elt Ideal) ℓ) (ρ : Dev nD → PrngReg)

/-- The coefficients as staged: the argument transposed. -/
theorem V_coeffs (c : Dev nD) : (V m c main_v0 : S5x1024.Idx → EReal)
    = transpose S5x1024 [1, 0] (m ((c : Thread nD τ).loc main_arg1)) transposes_S1024x5_S5x1024_1_0 := by
  dsimp only [Gen.V, Gen.hostOps0]; after_results <;> rfl

/-- The weights as staged: the argument transposed. -/
theorem V_weights (c : Dev nD) : (V m c main_v1 : S2x1024.Idx → EReal)
    = transpose S2x1024 [1, 0] (m ((c : Thread nD τ).loc main_arg2)) transposes_S1024x2_S2x1024_1_0 := by
  dsimp only [Gen.V, Gen.hostOps0]; after_results <;> rfl

/-- The bias as staged: the argument as one row. -/
theorem V_bias (c : Dev nD) : (V m c main_v2 : S1x1024.Idx → EReal)
    = shapeCast S1x1024 (m ((c : Thread nD τ).loc main_arg3)) shapeCasts_S1024_S1x1024 := by
  dsimp only [Gen.V, Gen.hostOps0]; after_results <;> rfl

theorem coeffs_at (C : S1024x5.Idx → EReal) (k : Fin 5) (q : Fin 1024) :
    transpose S5x1024 [1, 0] C transposes_S1024x5_S5x1024_1_0 (ix2 k q) = C (ix2 q k) :=
  transpose_apply _ _ _ _ _ fun b => match b with | ⟨0, _⟩ => rfl | ⟨1, _⟩ => rfl

theorem weights_at (W : S1024x2.Idx → EReal) (k : Fin 2) (q : Fin 1024) :
    transpose S2x1024 [1, 0] W transposes_S1024x2_S2x1024_1_0 (ix2 k q) = W (ix2 q k) :=
  transpose_apply _ _ _ _ _ fun b => match b with | ⟨0, _⟩ => rfl | ⟨1, _⟩ => rfl

theorem bias_at (B : S1024.Idx → EReal) (z : Fin 1) (q : Fin 1024) :
    shapeCast S1x1024 B shapeCasts_S1024_S1x1024 (ix2 z q) = B (ix1 q) := by
  refine (shapeCast_addUnit_apply (![1024] : Fin 1 → Nat) B shapeCasts_S1024_S1x1024 (ix2 z q)).trans ?_
  refine congrArg B (funext fun a => ?_)
  match a with | ⟨0, _⟩ => rfl

/-! ## The windows' blocks at a grid point -/

/-- The printed index maps over the 16 grid points: X and the result move one block of rows per point, the three
    small arrays stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem N16 : cfg0.N = 16 := N_0

/-- Row 512·t + p of an array of 8192 rows. -/
def rowAt (t : Fin cfg0.N) (p : Fin 512) : Fin 8192 := ⟨t.val * 512 + p.val, by
  have ht : t.val < 16 := lt_of_lt_of_eq t.isLt N16
  have hp := p.isLt; omega⟩

theorem blk_x (c : Dev nD) (t : Fin cfg0.N) (p : Fin 512) (q : Fin 1024) :
    (iblk m c 0 t : Vec Ideal S512x1024 .f32) (ix2 p q)
      = (m ((c : Thread nD τ).loc main_arg0) : S8192x1024.Idx → EReal) (ix2 (rowAt t p) q) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 512 + 1 * p.val = t.val * 512 + p.val; rw [e0]; omega
  | ⟨1, _⟩ => show win0_0.index t (1 : Fin 2) * 1024 + 1 * q.val = q.val; rw [e1]; omega

theorem blk_coeffs (c : Dev nD) (t : Fin cfg0.N) (k : Fin 5) (q : Fin 1024) :
    (iblk m c 1 t : Vec Ideal S5x1024 .f32) (ix2 k q)
      = (m ((c : Thread nD τ).loc main_arg1) : S1024x5.Idx → EReal) (ix2 q k) := by
  obtain ⟨-, -, e0, e1, -⟩ := idx_facts t
  unfold iblk
  rw [View.read_apply]
  show V m c main_v0 _ = _
  rw [V_coeffs, ← coeffs_at (m ((c : Thread nD τ).loc main_arg1)) k q]
  congr 1
  funext a
  apply Fin.ext
  match a with
  | ⟨0, _⟩ => show win0_1.index t (0 : Fin 2) * 5 + 1 * k.val = k.val; rw [e0]; omega
  | ⟨1, _⟩ => show win0_1.index t (1 : Fin 2) * 1024 + 1 * q.val = q.val; rw [e1]; omega

theorem blk_weights (c : Dev nD) (t : Fin cfg0.N) (k : Fin 2) (q : Fin 1024) :
    (iblk m c 2 t : Vec Ideal S2x1024 .f32) (ix2 k q)
      = (m ((c : Thread nD τ).loc main_arg2) : S1024x2.Idx → EReal) (ix2 q k) := by
  obtain ⟨-, -, -, -, e0, e1, -⟩ := idx_facts t
  unfold iblk
  rw [View.read_apply]
  show V m c main_v1 _ = _
  rw [V_weights, ← weights_at (m ((c : Thread nD τ).loc main_arg2)) k q]
  congr 1
  funext a
  apply Fin.ext
  match a with
  | ⟨0, _⟩ => show win0_2.index t (0 : Fin 2) * 2 + 1 * k.val = k.val; rw [e0]; omega
  | ⟨1, _⟩ => show win0_2.index t (1 : Fin 2) * 1024 + 1 * q.val = q.val; rw [e1]; omega

theorem blk_bias (c : Dev nD) (t : Fin cfg0.N) (z : Fin 1) (q : Fin 1024) :
    (iblk m c 3 t : Vec Ideal S1x1024 .f32) (ix2 z q)
      = (m ((c : Thread nD τ).loc main_arg3) : S1024.Idx → EReal) (ix1 q) := by
  obtain ⟨-, -, -, -, -, -, e0, e1, -⟩ := idx_facts t
  unfold iblk
  rw [View.read_apply]
  show V m c main_v2 _ = _
  rw [V_bias, ← bias_at (m ((c : Thread nD τ).loc main_arg3)) z q]
  congr 1
  funext a
  apply Fin.ext
  match a with
  | ⟨0, _⟩ => show win0_3.index t (0 : Fin 2) * 1 + 1 * z.val = z.val; rw [e0]; omega
  | ⟨1, _⟩ => show win0_3.index t (1 : Fin 2) * 1024 + 1 * q.val = q.val; rw [e1]; omega

/-! ## From blocks to the array -/

/-- The layer function of the argument arrays as launched. -/
abbrev layer (c : Dev nD) : S8192x1024.Idx → EReal :=
  Kan.G (m ((c : Thread nD τ).loc main_arg0)) (m ((c : Thread nD τ).loc main_arg1)) (m ((c : Thread nD τ).loc main_arg2))
    (m ((c : Thread nD τ).loc main_arg3))

/-- WHAT POINT t WRITES BACK is block t of the layer function. -/
theorem flushed_eq (c : Dev nD) (t : Fin cfg0.N) :
    (dats m 0 c).flushed 4 t = ((cfg0.win 4).blk t).view.read (Elt Ideal) (layer m c) := by
  rw [ValueP.flushed4]
  obtain ⟨-, -, -, -, -, -, -, -, e0, e1⟩ := idx_facts t
  funext j
  obtain ⟨p, q, rfl⟩ : ∃ (p : Fin 512) (q : Fin 1024), j = ix2 p q := ⟨j 0, j 1, eq_ix2 j⟩
  have hemb : ((cfg0.win 4).blk t).view.emb (ix2 p q) = (ix2 (rowAt t p) q : S8192x1024.Idx) := by
    funext a
    apply Fin.ext
    match a with
    | ⟨0, _⟩ => show win0_4.index t (0 : Fin 2) * 512 + 1 * p.val = t.val * 512 + p.val; rw [e0]; omega
    | ⟨1, _⟩ => show win0_4.index t (1 : Fin 2) * 1024 + 1 * q.val = q.val; rw [e1]; omega
  show out0_4 (iblk m c 0 t) (iblk m c 1 t) (iblk m c 2 t) (iblk m c 3 t) (ix2 p q)
    = layer m c (((cfg0.win 4).blk t).view.emb (ix2 p q))
  rw [hemb]
  refine (out_at (iblk m c 0 t) (iblk m c 1 t) (iblk m c 2 t) (iblk m c 3 t) p q).trans ?_
  rw [blk_x m c t p q, blk_coeffs m c t 0 q, blk_coeffs m c t 1 q, blk_coeffs m c t 2 q, blk_coeffs m c t 3 q,
    blk_coeffs m c t 4 q, blk_weights m c t 0 q, blk_weights m c t 1 q, blk_bias m c t 0 q]
  rfl

/-- An index of the result is in point t's block iff its row is among the block's 512 rows. -/
theorem mem_blk (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v3).slice (win0_4.rect t)).set ↔ _
  rw [View.set_slice_whole, Rect.mem_set_unit]
  exact Iff.rfl

/-- The 16 blocks cover the result: row r is in the block of point r / 512. -/
theorem cover (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  let t : Fin cfg0.N := ⟨(i 0).val / 512, by rw [N16]; omega⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    rw [e0]; show (i 0).val / 512 * 512 ≤ (i 0).val ∧ (i 0).val < (i 0).val / 512 * 512 + 512; omega
  | ⟨1, _⟩ =>
    show win0_4.index t (1 : Fin 2) * 1024 ≤ (i 1).val ∧ (i 1).val < win0_4.index t (1 : Fin 2) * 1024 + 1024
    rw [e1]; omega

/-- THE RESULT ARRAY after the run is the layer function of the argument arrays. -/
theorem final (c : Dev nD) : (dats m 0 c).arrAt 4 cfg0.N = layer m c :=
  (dats m 0 c).arrAt_eq_of_cover 4 (layer m c) (fun t _ => flushed_eq m c t) (cover)

/-- The kernel's run: it terminates without a fault, the result array at the layer function of the argument arrays,
    the argument arrays unchanged. -/
theorem run : θ_run defs (onTc (τ := τ) (main (F := Ideal))) ⟨m, fun _ => 0, ρ⟩ fun r => ∀ c : Dev nD,
      r.2.mem ((c : Thread nD τ).loc main_v3) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (ValueP.run_blocks m ρ)

end Cert.KernelIdeal.KValue

end
-- ==== Proof.RefTerm.lean ====
/-
  The reference's 130 intermediate values, one definition each.

  Every buffer the reference writes is written once, by one operation, from buffers written before it. Each
  definition below is that operation's function applied to the definitions of its operands (X, C, W, B stand for
  the four argument arrays: the input, the spline coefficients, the weights and the bias), in the order the
  operations run: the column index i mod 1024 (made non-negative), the input gathered at it, its SiLU, the grid
  coordinate, the integer segment and the fractional part, the two coefficient gathers at (edge, segment) and
  (edge, segment + 1), the interpolation, and the affine combination.
-/
import proofs.«165169_j1108101562900_2_alg».proof.Proof.Gen.ReferenceIdeal

noncomputable section

namespace Cert.ReferenceIdeal.RefTerm

open Cert.ReferenceIdeal Cert.ReferenceIdeal.Gen Idealize.ShloMosaic

variable {F : FTy → Type} [FloatOps F]

/-- Two index arrays with a trailing unit axis set side by side along it: the two components of a start index. -/
def pairLast (a b : IVec S8192x1024x1 32) : IVec S8192x1024x2 32 :=
  concatenate S8192x1024x2 2 [⟨S8192x1024x1, a⟩, ⟨S8192x1024x1, b⟩] concatenates_S8192x1024x1_S8192x1024x1_S8192x1024x2_d2

def v_main_v0 : IVec S1024 32 := (iotaInDim S1024 32 0)
def v_main_c : IVec S_ 32 := (constantI S_ 32 1024#32)
def v_main_call0_v0 : IVec S_ 32 := (id : IVec S_ 32 → IVec S_ 32) v_main_c
def v_main_call0_c : IVec S_ 32 := (constantI S_ 32 0#32)
def v_main_call0_v1 : IVec S_ 1 := ((cmpi .eq) : IVec S_ 32 → IVec S_ 32 → IVec S_ 1) v_main_call0_v0 v_main_call0_c
def v_main_call0_c_0 : IVec S_ 32 := (constantI S_ 32 1#32)
def v_main_call0_v2 : IVec S_ 32 := (select : IVec S_ 1 → IVec S_ 32 → IVec S_ 32 → IVec S_ 32) v_main_call0_v1 v_main_call0_c_0 v_main_call0_v0
def v_main_call0_v3 : IVec S1024 32 := ((broadcastInDim S1024 ![] bcast_S_S1024) : IVec S_ 32 → IVec S1024 32) v_main_call0_v2
def v_main_call0_v4 : IVec S1024 32 := (Host.remsi : IVec S1024 32 → IVec S1024 32 → IVec S1024 32) v_main_v0 v_main_call0_v3
def v_main_call0_c_1 : IVec S_ 32 := (constantI S_ 32 0#32)
def v_main_call0_v5 : IVec S1024 32 := ((broadcastInDim S1024 ![] bcast_S_S1024) : IVec S_ 32 → IVec S1024 32) v_main_call0_c_1
def v_main_call0_v6 : IVec S1024 1 := ((cmpi .ne) : IVec S1024 32 → IVec S1024 32 → IVec S1024 1) v_main_call0_v4 v_main_call0_v5
def v_main_call0_c_2 : IVec S_ 32 := (constantI S_ 32 0#32)
def v_main_call0_v7 : IVec S1024 32 := ((broadcastInDim S1024 ![] bcast_S_S1024) : IVec S_ 32 → IVec S1024 32) v_main_call0_c_2
def v_main_call0_v8 : IVec S1024 1 := ((cmpi .slt) : IVec S1024 32 → IVec S1024 32 → IVec S1024 1) v_main_call0_v4 v_main_call0_v7
def v_main_call0_c_3 : IVec S_ 32 := (constantI S_ 32 0#32)
def v_main_call0_v9 : IVec S_ 1 := ((cmpi .slt) : IVec S_ 32 → IVec S_ 32 → IVec S_ 1) v_main_call0_v2 v_main_call0_c_3
def v_main_call0_v10 : IVec S1024 1 := ((broadcastInDim S1024 ![] bcast_S_S1024) : IVec S_ 1 → IVec S1024 1) v_main_call0_v9
def v_main_call0_v11 : IVec S1024 1 := ((cmpi .ne) : IVec S1024 1 → IVec S1024 1 → IVec S1024 1) v_main_call0_v8 v_main_call0_v10
def v_main_call0_v12 : IVec S1024 1 := (andi : IVec S1024 1 → IVec S1024 1 → IVec S1024 1) v_main_call0_v11 v_main_call0_v6
def v_main_call0_v13 : IVec S1024 32 := ((broadcastInDim S1024 ![] bcast_S_S1024) : IVec S_ 32 → IVec S1024 32) v_main_call0_v2
def v_main_call0_v14 : IVec S1024 32 := (addi : IVec S1024 32 → IVec S1024 32 → IVec S1024 32) v_main_call0_v4 v_main_call0_v13
def v_main_v1 : IVec S1024 32 := (select : IVec S1024 1 → IVec S1024 32 → IVec S1024 32 → IVec S1024 32) v_main_call0_v12 v_main_call0_v14 v_main_call0_v4
def v_main_c_0 : IVec S_ 32 := (constantI S_ 32 0#32)
def v_main_v2 : IVec S1024 32 := ((broadcastInDim S1024 ![] bcast_S_S1024) : IVec S_ 32 → IVec S1024 32) v_main_c_0
def v_main_v3 : IVec S1024 1 := ((cmpi .slt) : IVec S1024 32 → IVec S1024 32 → IVec S1024 1) v_main_v1 v_main_v2
def v_main_c_1 : IVec S_ 32 := (constantI S_ 32 1024#32)
def v_main_v4 : IVec S1024 32 := ((broadcastInDim S1024 ![] bcast_S_S1024) : IVec S_ 32 → IVec S1024 32) v_main_c_1
def v_main_v5 : IVec S1024 32 := (addi : IVec S1024 32 → IVec S1024 32 → IVec S1024 32) v_main_v1 v_main_v4
def v_main_v6 : IVec S1024 32 := (select : IVec S1024 1 → IVec S1024 32 → IVec S1024 32 → IVec S1024 32) v_main_v3 v_main_v5 v_main_v1
def v_main_v7 : IVec S1024x1 32 := ((broadcastInDim S1024x1 ![0] bcast_S1024_S1024x1_0) : IVec S1024 32 → IVec S1024x1 32) v_main_v6
def v_main_v8 (X : FVec F S8192x1024 .f32) : FVec F S8192x1024 .f32 := ((fun x i => Host.gather gather_S8192x1024_S1024x1_S8192x1024_0_1_n_n_1_1_81921 x i) : FVec F S8192x1024 .f32 → IVec S1024x1 32 → FVec F S8192x1024 .f32) X v_main_v7
def v_main_call1_v0 (X : FVec F S8192x1024 .f32) : FVec F S8192x1024 .f32 := (Host.negf : FVec F S8192x1024 .f32 → FVec F S8192x1024 .f32) (v_main_v8 X)
def v_main_call1_v1 (X : FVec F S8192x1024 .f32) : FVec F S8192x1024 .f32 := (Host.exp : FVec F S8192x1024 .f32 → FVec F S8192x1024 .f32) (v_main_call1_v0 X)
def v_main_call1_cst : FVec F S_ .f32 := (constant S_ .f32 0x3F800000#32)
def v_main_call1_v2 : FVec F S8192x1024 .f32 := ((broadcastInDim S8192x1024 ![] bcast_S_S8192x1024) : FVec F S_ .f32 → FVec F S8192x1024 .f32) v_main_call1_cst
def v_main_call1_v3 (X : FVec F S8192x1024 .f32) : FVec F S8192x1024 .f32 := (addf : FVec F S8192x1024 .f32 → FVec F S8192x1024 .f32 → FVec F S8192x1024 .f32) v_main_call1_v2 (v_main_call1_v1 X)
def v_main_call1_cst_0 : FVec F S_ .f32 := (constant S_ .f32 0x3F800000#32)
def v_main_call1_v4 : FVec F S8192x1024 .f32 := ((broadcastInDim S8192x1024 ![] bcast_S_S8192x1024) : FVec F S_ .f32 → FVec F S8192x1024 .f32) v_main_call1_cst_0
def v_main_call1_v5 (X : FVec F S8192x1024 .f32) : FVec F S8192x1024 .f32 := (Host.divf : FVec F S8192x1024 .f32 → FVec F S8192x1024 .f32 → FVec F S8192x1024 .f32) v_main_call1_v4 (v_main_call1_v3 X)
def v_main_v9 (X : FVec F S8192x1024 .f32) : FVec F S8192x1024 .f32 := (mulf : FVec F S8192x1024 .f32 → FVec F S8192x1024 .f32 → FVec F S8192x1024 .f32) (v_main_v8 X) (v_main_call1_v5 X)
def v_main_cst : FVec F S_ .f32 := (constant S_ .f32 0xBF800000#32)
def v_main_cst_2 : FVec F S_ .f32 := (constant S_ .f32 0x3F800000#32)
def v_main_call2_v0 : FVec F S_ .f32 := (id : FVec F S_ .f32 → FVec F S_ .f32) v_main_cst
def v_main_call2_v1 : FVec F S8192x1024 .f32 := ((broadcastInDim S8192x1024 ![] bcast_S_S8192x1024) : FVec F S_ .f32 → FVec F S8192x1024 .f32) v_main_call2_v0
def v_main_call2_v2 (X : FVec F S8192x1024 .f32) : FVec F S8192x1024 .f32 := (maximumf : FVec F S8192x1024 .f32 → FVec F S8192x1024 .f32 → FVec F S8192x1024 .f32) v_main_call2_v1 (v_main_v8 X)
def v_main_call2_v3 : FVec F S_ .f32 := (id : FVec F S_ .f32 → FVec F S_ .f32) v_main_cst_2
def v_main_call2_v4 : FVec F S8192x1024 .f32 := ((broadcastInDim S8192x1024 ![] bcast_S_S8192x1024) : FVec F S_ .f32 → FVec F S8192x1024 .f32) v_main_call2_v3
def v_main_v10 (X : FVec F S8192x1024 .f32) : FVec F S8192x1024 .f32 := (minimumf : FVec F S8192x1024 .f32 → FVec F S8192x1024 .f32 → FVec F S8192x1024 .f32) v_main_call2_v4 (v_main_call2_v2 X)
def v_main_cst_3 : FVec F S_ .f32 := (constant S_ .f32 0x3F800000#32)
def v_main_v11 : FVec F S8192x1024 .f32 := ((broadcastInDim S8192x1024 ![] bcast_S_S8192x1024) : FVec F S_ .f32 → FVec F S8192x1024 .f32) v_main_cst_3
def v_main_v12 (X : FVec F S8192x1024 .f32) : FVec F S8192x1024 .f32 := (addf : FVec F S8192x1024 .f32 → FVec F S8192x1024 .f32 → FVec F S8192x1024 .f32) (v_main_v10 X) v_main_v11
def v_main_cst_4 : FVec F S_ .f32 := (constant S_ .f32 0x3F000000#32)
def v_main_v13 : FVec F S8192x1024 .f32 := ((broadcastInDim S8192x1024 ![] bcast_S_S8192x1024) : FVec F S_ .f32 → FVec F S8192x1024 .f32) v_main_cst_4
def v_main_v14 (X : FVec F S8192x1024 .f32) : FVec F S8192x1024 .f32 := (Host.divf : FVec F S8192x1024 .f32 → FVec F S8192x1024 .f32 → FVec F S8192x1024 .f32) (v_main_v12 X) v_main_v13
def v_main_v15 (X : FVec F S8192x1024 .f32) : FVec F S8192x1024 .f32 := (Host.floor : FVec F S8192x1024 .f32 → FVec F S8192x1024 .f32) (v_main_v14 X)
def v_main_c_5 : IVec S_ 32 := (constantI S_ 32 0#32)
def v_main_c_6 : IVec S_ 32 := (constantI S_ 32 3#32)
def v_main_call3_v0 : FVec F S_ .f32 := ((sitofp .f32) : IVec S_ 32 → FVec F S_ .f32) v_main_c_5
def v_main_call3_v1 : FVec F S8192x1024 .f32 := ((broadcastInDim S8192x1024 ![] bcast_S_S8192x1024) : FVec F S_ .f32 → FVec F S8192x1024 .f32) v_main_call3_v0
def v_main_call3_v2 (X : FVec F S8192x1024 .f32) : FVec F S8192x1024 .f32 := (maximumf : FVec F S8192x1024 .f32 → FVec F S8192x1024 .f32 → FVec F S8192x1024 .f32) v_main_call3_v1 (v_main_v15 X)
def v_main_call3_v3 : FVec F S_ .f32 := ((sitofp .f32) : IVec S_ 32 → FVec F S_ .f32) v_main_c_6
def v_main_call3_v4 : FVec F S8192x1024 .f32 := ((broadcastInDim S8192x1024 ![] bcast_S_S8192x1024) : FVec F S_ .f32 → FVec F S8192x1024 .f32) v_main_call3_v3
def v_main_v16 (X : FVec F S8192x1024 .f32) : FVec F S8192x1024 .f32 := (minimumf : FVec F S8192x1024 .f32 → FVec F S8192x1024 .f32 → FVec F S8192x1024 .f32) v_main_call3_v4 (v_main_call3_v2 X)
def v_main_v17 (X : FVec F S8192x1024 .f32) : IVec S8192x1024 32 := ((fptosi 32) : FVec F S8192x1024 .f32 → IVec S8192x1024 32) (v_main_v16 X)
def v_main_v18 (X : FVec F S8192x1024 .f32) : FVec F S8192x1024 .f32 := ((sitofp .f32) : IVec S8192x1024 32 → FVec F S8192x1024 .f32) (v_main_v17 X)
def v_main_v19 (X : FVec F S8192x1024 .f32) : FVec F S8192x1024 .f32 := (subf : FVec F S8192x1024 .f32 → FVec F S8192x1024 .f32 → FVec F S8192x1024 .f32) (v_main_v14 X) (v_main_v18 X)
def v_main_v20 : IVec S1024 32 := (iotaInDim S1024 32 0)
def v_main_v21 : IVec S1x1024 32 := ((broadcastInDim S1x1024 ![1] bcast_S1024_S1x1024_1) : IVec S1024 32 → IVec S1x1024 32) v_main_v20
def v_main_c_7 : IVec S_ 32 := (constantI S_ 32 0#32)
def v_main_v22 : IVec S1x1024 32 := ((broadcastInDim S1x1024 ![] bcast_S_S1x1024) : IVec S_ 32 → IVec S1x1024 32) v_main_c_7
def v_main_v23 : IVec S1x1024 1 := ((cmpi .slt) : IVec S1x1024 32 → IVec S1x1024 32 → IVec S1x1024 1) v_main_v21 v_main_v22
def v_main_c_8 : IVec S_ 32 := (constantI S_ 32 1024#32)
def v_main_v24 : IVec S1x1024 32 := ((broadcastInDim S1x1024 ![] bcast_S_S1x1024) : IVec S_ 32 → IVec S1x1024 32) v_main_c_8
def v_main_v25 : IVec S1x1024 32 := (addi : IVec S1x1024 32 → IVec S1x1024 32 → IVec S1x1024 32) v_main_v21 v_main_v24
def v_main_v26 : IVec S1x1024 32 := (select : IVec S1x1024 1 → IVec S1x1024 32 → IVec S1x1024 32 → IVec S1x1024 32) v_main_v23 v_main_v25 v_main_v21
def v_main_c_9 : IVec S_ 32 := (constantI S_ 32 0#32)
def v_main_v27 : IVec S8192x1024 32 := ((broadcastInDim S8192x1024 ![] bcast_S_S8192x1024) : IVec S_ 32 → IVec S8192x1024 32) v_main_c_9
def v_main_v28 (X : FVec F S8192x1024 .f32) : IVec S8192x1024 1 := ((cmpi .slt) : IVec S8192x1024 32 → IVec S8192x1024 32 → IVec S8192x1024 1) (v_main_v17 X) v_main_v27
def v_main_c_10 : IVec S_ 32 := (constantI S_ 32 5#32)
def v_main_v29 : IVec S8192x1024 32 := ((broadcastInDim S8192x1024 ![] bcast_S_S8192x1024) : IVec S_ 32 → IVec S8192x1024 32) v_main_c_10
def v_main_v30 (X : FVec F S8192x1024 .f32) : IVec S8192x1024 32 := (addi : IVec S8192x1024 32 → IVec S8192x1024 32 → IVec S8192x1024 32) (v_main_v17 X) v_main_v29
def v_main_v31 (X : FVec F S8192x1024 .f32) : IVec S8192x1024 32 := (select : IVec S8192x1024 1 → IVec S8192x1024 32 → IVec S8192x1024 32 → IVec S8192x1024 32) (v_main_v28 X) (v_main_v30 X) (v_main_v17 X)
def v_main_v32 : IVec S8192x1024 32 := ((broadcastInDim S8192x1024 ![0, 1] bcast_S1x1024_S8192x1024_0_1) : IVec S1x1024 32 → IVec S8192x1024 32) v_main_v26
def v_main_v33 : IVec S8192x1024x1 32 := ((broadcastInDim S8192x1024x1 ![0, 1] bcast_S8192x1024_S8192x1024x1_0_1) : IVec S8192x1024 32 → IVec S8192x1024x1 32) v_main_v32
def v_main_v34 (X : FVec F S8192x1024 .f32) : IVec S8192x1024x1 32 := ((broadcastInDim S8192x1024x1 ![0, 1] bcast_S8192x1024_S8192x1024x1_0_1) : IVec S8192x1024 32 → IVec S8192x1024x1 32) (v_main_v31 X)
def v_main_v35 (X : FVec F S8192x1024 .f32) : IVec S8192x1024x2 32 := (pairLast : IVec S8192x1024x1 32 → IVec S8192x1024x1 32 → IVec S8192x1024x2 32) v_main_v33 (v_main_v34 X)
def v_main_v36 (X : FVec F S8192x1024 .f32) (C : FVec F S1024x5 .f32) : FVec F S8192x1024 .f32 := ((fun x i => Host.gather gather_S1024x5_S8192x1024x2_S8192x1024_n_01_n_n_01_2_11 x i) : FVec F S1024x5 .f32 → IVec S8192x1024x2 32 → FVec F S8192x1024 .f32) C (v_main_v35 X)
def v_main_c_11 : IVec S_ 32 := (constantI S_ 32 1#32)
def v_main_v37 : IVec S8192x1024 32 := ((broadcastInDim S8192x1024 ![] bcast_S_S8192x1024) : IVec S_ 32 → IVec S8192x1024 32) v_main_c_11
def v_main_v38 (X : FVec F S8192x1024 .f32) : IVec S8192x1024 32 := (addi : IVec S8192x1024 32 → IVec S8192x1024 32 → IVec S8192x1024 32) (v_main_v17 X) v_main_v37
def v_main_c_12 : IVec S_ 32 := (constantI S_ 32 0#32)
def v_main_v39 : IVec S1x1024 32 := ((broadcastInDim S1x1024 ![] bcast_S_S1x1024) : IVec S_ 32 → IVec S1x1024 32) v_main_c_12
def v_main_v40 : IVec S1x1024 1 := ((cmpi .slt) : IVec S1x1024 32 → IVec S1x1024 32 → IVec S1x1024 1) v_main_v21 v_main_v39
def v_main_c_13 : IVec S_ 32 := (constantI S_ 32 1024#32)
def v_main_v41 : IVec S1x1024 32 := ((broadcastInDim S1x1024 ![] bcast_S_S1x1024) : IVec S_ 32 → IVec S1x1024 32) v_main_c_13
def v_main_v42 : IVec S1x1024 32 := (addi : IVec S1x1024 32 → IVec S1x1024 32 → IVec S1x1024 32) v_main_v21 v_main_v41
def v_main_v43 : IVec S1x1024 32 := (select : IVec S1x1024 1 → IVec S1x1024 32 → IVec S1x1024 32 → IVec S1x1024 32) v_main_v40 v_main_v42 v_main_v21
def v_main_c_14 : IVec S_ 32 := (constantI S_ 32 0#32)
def v_main_v44 : IVec S8192x1024 32 := ((broadcastInDim S8192x1024 ![] bcast_S_S8192x1024) : IVec S_ 32 → IVec S8192x1024 32) v_main_c_14
def v_main_v45 (X : FVec F S8192x1024 .f32) : IVec S8192x1024 1 := ((cmpi .slt) : IVec S8192x1024 32 → IVec S8192x1024 32 → IVec S8192x1024 1) (v_main_v38 X) v_main_v44
def v_main_c_15 : IVec S_ 32 := (constantI S_ 32 5#32)
def v_main_v46 : IVec S8192x1024 32 := ((broadcastInDim S8192x1024 ![] bcast_S_S8192x1024) : IVec S_ 32 → IVec S8192x1024 32) v_main_c_15
def v_main_v47 (X : FVec F S8192x1024 .f32) : IVec S8192x1024 32 := (addi : IVec S8192x1024 32 → IVec S8192x1024 32 → IVec S8192x1024 32) (v_main_v38 X) v_main_v46
def v_main_v48 (X : FVec F S8192x1024 .f32) : IVec S8192x1024 32 := (select : IVec S8192x1024 1 → IVec S8192x1024 32 → IVec S8192x1024 32 → IVec S8192x1024 32) (v_main_v45 X) (v_main_v47 X) (v_main_v38 X)
def v_main_v49 : IVec S8192x1024 32 := ((broadcastInDim S8192x1024 ![0, 1] bcast_S1x1024_S8192x1024_0_1) : IVec S1x1024 32 → IVec S8192x1024 32) v_main_v43
def v_main_v50 : IVec S8192x1024x1 32 := ((broadcastInDim S8192x1024x1 ![0, 1] bcast_S8192x1024_S8192x1024x1_0_1) : IVec S8192x1024 32 → IVec S8192x1024x1 32) v_main_v49
def v_main_v51 (X : FVec F S8192x1024 .f32) : IVec S8192x1024x1 32 := ((broadcastInDim S8192x1024x1 ![0, 1] bcast_S8192x1024_S8192x1024x1_0_1) : IVec S8192x1024 32 → IVec S8192x1024x1 32) (v_main_v48 X)
def v_main_v52 (X : FVec F S8192x1024 .f32) : IVec S8192x1024x2 32 := (pairLast : IVec S8192x1024x1 32 → IVec S8192x1024x1 32 → IVec S8192x1024x2 32) v_main_v50 (v_main_v51 X)
def v_main_v53 (X : FVec F S8192x1024 .f32) (C : FVec F S1024x5 .f32) : FVec F S8192x1024 .f32 := ((fun x i => Host.gather gather_S1024x5_S8192x1024x2_S8192x1024_n_01_n_n_01_2_11 x i) : FVec F S1024x5 .f32 → IVec S8192x1024x2 32 → FVec F S8192x1024 .f32) C (v_main_v52 X)
def v_main_cst_16 : FVec F S_ .f32 := (constant S_ .f32 0x3F800000#32)
def v_main_v54 : FVec F S8192x1024 .f32 := ((broadcastInDim S8192x1024 ![] bcast_S_S8192x1024) : FVec F S_ .f32 → FVec F S8192x1024 .f32) v_main_cst_16
def v_main_v55 (X : FVec F S8192x1024 .f32) : FVec F S8192x1024 .f32 := (subf : FVec F S8192x1024 .f32 → FVec F S8192x1024 .f32 → FVec F S8192x1024 .f32) v_main_v54 (v_main_v19 X)
def v_main_v56 (X : FVec F S8192x1024 .f32) (C : FVec F S1024x5 .f32) : FVec F S8192x1024 .f32 := (mulf : FVec F S8192x1024 .f32 → FVec F S8192x1024 .f32 → FVec F S8192x1024 .f32) (v_main_v36 X C) (v_main_v55 X)
def v_main_v57 (X : FVec F S8192x1024 .f32) (C : FVec F S1024x5 .f32) : FVec F S8192x1024 .f32 := (mulf : FVec F S8192x1024 .f32 → FVec F S8192x1024 .f32 → FVec F S8192x1024 .f32) (v_main_v53 X C) (v_main_v19 X)
def v_main_v58 (X : FVec F S8192x1024 .f32) (C : FVec F S1024x5 .f32) : FVec F S8192x1024 .f32 := (addf : FVec F S8192x1024 .f32 → FVec F S8192x1024 .f32 → FVec F S8192x1024 .f32) (v_main_v56 X C) (v_main_v57 X C)
def v_main_v59 (W : FVec F S1024x2 .f32) : FVec F S1024x1 .f32 := ((extractStridedSlice S1024x1 ![0, 0] · slices_S1024x2_S1024x1_0_0) : FVec F S1024x2 .f32 → FVec F S1024x1 .f32) W
def v_main_v60 (W : FVec F S1024x2 .f32) : FVec F S1024 .f32 := shapeCast S1024 (v_main_v59 W) shapeCasts_S1024x1_S1024
def v_main_v61 (W : FVec F S1024x2 .f32) : FVec F S1x1024 .f32 := ((broadcastInDim S1x1024 ![1] bcast_S1024_S1x1024_1) : FVec F S1024 .f32 → FVec F S1x1024 .f32) (v_main_v60 W)
def v_main_v62 (W : FVec F S1024x2 .f32) : FVec F S8192x1024 .f32 := ((broadcastInDim S8192x1024 ![0, 1] bcast_S1x1024_S8192x1024_0_1) : FVec F S1x1024 .f32 → FVec F S8192x1024 .f32) (v_main_v61 W)
def v_main_v63 (X : FVec F S8192x1024 .f32) (W : FVec F S1024x2 .f32) : FVec F S8192x1024 .f32 := (mulf : FVec F S8192x1024 .f32 → FVec F S8192x1024 .f32 → FVec F S8192x1024 .f32) (v_main_v9 X) (v_main_v62 W)
def v_main_v64 (W : FVec F S1024x2 .f32) : FVec F S1024x1 .f32 := ((extractStridedSlice S1024x1 ![0, 1] · slices_S1024x2_S1024x1_0_1) : FVec F S1024x2 .f32 → FVec F S1024x1 .f32) W
def v_main_v65 (W : FVec F S1024x2 .f32) : FVec F S1024 .f32 := shapeCast S1024 (v_main_v64 W) shapeCasts_S1024x1_S1024
def v_main_v66 (W : FVec F S1024x2 .f32) : FVec F S1x1024 .f32 := ((broadcastInDim S1x1024 ![1] bcast_S1024_S1x1024_1) : FVec F S1024 .f32 → FVec F S1x1024 .f32) (v_main_v65 W)
def v_main_v67 (W : FVec F S1024x2 .f32) : FVec F S8192x1024 .f32 := ((broadcastInDim S8192x1024 ![0, 1] bcast_S1x1024_S8192x1024_0_1) : FVec F S1x1024 .f32 → FVec F S8192x1024 .f32) (v_main_v66 W)
def v_main_v68 (X : FVec F S8192x1024 .f32) (C : FVec F S1024x5 .f32) (W : FVec F S1024x2 .f32) : FVec F S8192x1024 .f32 := (mulf : FVec F S8192x1024 .f32 → FVec F S8192x1024 .f32 → FVec F S8192x1024 .f32) (v_main_v58 X C) (v_main_v67 W)
def v_main_v69 (X : FVec F S8192x1024 .f32) (C : FVec F S1024x5 .f32) (W : FVec F S1024x2 .f32) : FVec F S8192x1024 .f32 := (addf : FVec F S8192x1024 .f32 → FVec F S8192x1024 .f32 → FVec F S8192x1024 .f32) (v_main_v63 X W) (v_main_v68 X C W)
def v_main_v70 (B : FVec F S1024 .f32) : FVec F S1x1024 .f32 := ((broadcastInDim S1x1024 ![1] bcast_S1024_S1x1024_1) : FVec F S1024 .f32 → FVec F S1x1024 .f32) B
def v_main_v71 (B : FVec F S1024 .f32) : FVec F S8192x1024 .f32 := ((broadcastInDim S8192x1024 ![0, 1] bcast_S1x1024_S8192x1024_0_1) : FVec F S1x1024 .f32 → FVec F S8192x1024 .f32) (v_main_v70 B)
def v_main_v72 (X : FVec F S8192x1024 .f32) (C : FVec F S1024x5 .f32) (W : FVec F S1024x2 .f32) (B : FVec F S1024 .f32) : FVec F S8192x1024 .f32 := (addf : FVec F S8192x1024 .f32 → FVec F S8192x1024 .f32 → FVec F S8192x1024 .f32) (v_main_v69 X C W) (v_main_v71 B)

end Cert.ReferenceIdeal.RefTerm

end
-- ==== Proof.RefRun.lean ====
/-
  The reference program as a straight line of host operations, and its run.

  The reference's @main is printed in two windows, and five of its lines call functions jax outlined
  (the remainder that makes the column index, the SiLU, the two clips; the remainder itself calls a select).
  A call runs the callee's operations on the call's own buffers (each buffer holding a value of its own tensor
  type), so the whole program is one list of 130 elementary operations over the buffers: 98 for the first window (the column index, the gathered input, SiLU, the grid
  coordinate t = (clip(x) + 1) / h, its floor clipped to the last segment and taken to an integer, the
  fractional part, and the first coefficient gather) and 32 for the second (the second coefficient gather,
  the interpolation, and the affine combination with the two weights and the bias).
  Every weakly fair execution of such a line terminates, and each buffer ends at the fold of the operations
  over the launch contents.
-/
import proofs.«165169_j1108101562900_2_alg».proof.Proof.Gen.ReferenceIdeal
import proofs.«165169_j1108101562900_2_alg».proof.Proof.RefTerm
import Idealize.ShloMosaic.Lib.StableHlo.Run

noncomputable section

namespace Cert.ReferenceIdeal.RefRun

open Cert.ReferenceIdeal Cert.ReferenceIdeal.Gen Cert.ReferenceIdeal.RefTerm Idealize.ShloMosaic Idealize.ShloMosaic.TcCoe Idealize.SL.Sem Idealize.ShloMosaic.StableHlo

variable {F : FTy → Type} [FloatOps F]

/-- The first window's 98 operations, in order, each call replaced by its callee's operations. -/
abbrev ops0 : List (HloOp τ sig (Elt F)) :=
  [
    StableHlo.nullary main_v0 (iotaInDim S1024 32 0),
    StableHlo.nullary main_c (constantI S_ 32 1024#32),
    StableHlo.unary main_c main_call0_v0 (id : IVec S_ 32 → IVec S_ 32),
    StableHlo.nullary main_call0_c (constantI S_ 32 0#32),
    StableHlo.binary main_call0_v0 main_call0_c main_call0_v1 ((cmpi .eq) : IVec S_ 32 → IVec S_ 32 → IVec S_ 1),
    StableHlo.nullary main_call0_c_0 (constantI S_ 32 1#32),
    StableHlo.ternary main_call0_v1 main_call0_c_0 main_call0_v0 main_call0_v2 (select : IVec S_ 1 → IVec S_ 32 → IVec S_ 32 → IVec S_ 32),
    StableHlo.unary main_call0_v2 main_call0_v3 ((broadcastInDim S1024 ![] bcast_S_S1024) : IVec S_ 32 → IVec S1024 32),
    StableHlo.binary main_v0 main_call0_v3 main_call0_v4 (Host.remsi : IVec S1024 32 → IVec S1024 32 → IVec S1024 32),
    StableHlo.nullary main_call0_c_1 (constantI S_ 32 0#32),
    StableHlo.unary main_call0_c_1 main_call0_v5 ((broadcastInDim S1024 ![] bcast_S_S1024) : IVec S_ 32 → IVec S1024 32),
    StableHlo.binary main_call0_v4 main_call0_v5 main_call0_v6 ((cmpi .ne) : IVec S1024 32 → IVec S1024 32 → IVec S1024 1),
    StableHlo.nullary main_call0_c_2 (constantI S_ 32 0#32),
    StableHlo.unary main_call0_c_2 main_call0_v7 ((broadcastInDim S1024 ![] bcast_S_S1024) : IVec S_ 32 → IVec S1024 32),
    StableHlo.binary main_call0_v4 main_call0_v7 main_call0_v8 ((cmpi .slt) : IVec S1024 32 → IVec S1024 32 → IVec S1024 1),
    StableHlo.nullary main_call0_c_3 (constantI S_ 32 0#32),
    StableHlo.binary main_call0_v2 main_call0_c_3 main_call0_v9 ((cmpi .slt) : IVec S_ 32 → IVec S_ 32 → IVec S_ 1),
    StableHlo.unary main_call0_v9 main_call0_v10 ((broadcastInDim S1024 ![] bcast_S_S1024) : IVec S_ 1 → IVec S1024 1),
    StableHlo.binary main_call0_v8 main_call0_v10 main_call0_v11 ((cmpi .ne) : IVec S1024 1 → IVec S1024 1 → IVec S1024 1),
    StableHlo.binary main_call0_v11 main_call0_v6 main_call0_v12 (andi : IVec S1024 1 → IVec S1024 1 → IVec S1024 1),
    StableHlo.unary main_call0_v2 main_call0_v13 ((broadcastInDim S1024 ![] bcast_S_S1024) : IVec S_ 32 → IVec S1024 32),
    StableHlo.binary main_call0_v4 main_call0_v13 main_call0_v14 (addi : IVec S1024 32 → IVec S1024 32 → IVec S1024 32),
    StableHlo.ternary main_call0_v12 main_call0_v14 main_call0_v4 main_v1 (select : IVec S1024 1 → IVec S1024 32 → IVec S1024 32 → IVec S1024 32),
    StableHlo.nullary main_c_0 (constantI S_ 32 0#32),
    StableHlo.unary main_c_0 main_v2 ((broadcastInDim S1024 ![] bcast_S_S1024) : IVec S_ 32 → IVec S1024 32),
    StableHlo.binary main_v1 main_v2 main_v3 ((cmpi .slt) : IVec S1024 32 → IVec S1024 32 → IVec S1024 1),
    StableHlo.nullary main_c_1 (constantI S_ 32 1024#32),
    StableHlo.unary main_c_1 main_v4 ((broadcastInDim S1024 ![] bcast_S_S1024) : IVec S_ 32 → IVec S1024 32),
    StableHlo.binary main_v1 main_v4 main_v5 (addi : IVec S1024 32 → IVec S1024 32 → IVec S1024 32),
    StableHlo.ternary main_v3 main_v5 main_v1 main_v6 (select : IVec S1024 1 → IVec S1024 32 → IVec S1024 32 → IVec S1024 32),
    StableHlo.unary main_v6 main_v7 ((broadcastInDim S1024x1 ![0] bcast_S1024_S1024x1_0) : IVec S1024 32 → IVec S1024x1 32),
    StableHlo.binary main_arg0 main_v7 main_v8 ((fun x i => Host.gather gather_S8192x1024_S1024x1_S8192x1024_0_1_n_n_1_1_81921 x i) : FVec F S8192x1024 .f32 → IVec S1024x1 32 → FVec F S8192x1024 .f32),
    StableHlo.unary main_v8 main_call1_v0 (Host.negf : FVec F S8192x1024 .f32 → FVec F S8192x1024 .f32),
    StableHlo.unary main_call1_v0 main_call1_v1 (Host.exp : FVec F S8192x1024 .f32 → FVec F S8192x1024 .f32),
    StableHlo.nullary main_call1_cst (constant S_ .f32 0x3F800000#32),
    StableHlo.unary main_call1_cst main_call1_v2 ((broadcastInDim S8192x1024 ![] bcast_S_S8192x1024) : FVec F S_ .f32 → FVec F S8192x1024 .f32),
    StableHlo.binary main_call1_v2 main_call1_v1 main_call1_v3 (addf : FVec F S8192x1024 .f32 → FVec F S8192x1024 .f32 → FVec F S8192x1024 .f32),
    StableHlo.nullary main_call1_cst_0 (constant S_ .f32 0x3F800000#32),
    StableHlo.unary main_call1_cst_0 main_call1_v4 ((broadcastInDim S8192x1024 ![] bcast_S_S8192x1024) : FVec F S_ .f32 → FVec F S8192x1024 .f32),
    StableHlo.binary main_call1_v4 main_call1_v3 main_call1_v5 (Host.divf : FVec F S8192x1024 .f32 → FVec F S8192x1024 .f32 → FVec F S8192x1024 .f32),
    StableHlo.binary main_v8 main_call1_v5 main_v9 (mulf : FVec F S8192x1024 .f32 → FVec F S8192x1024 .f32 → FVec F S8192x1024 .f32),
    StableHlo.nullary main_cst (constant S_ .f32 0xBF800000#32),
    StableHlo.nullary main_cst_2 (constant S_ .f32 0x3F800000#32),
    StableHlo.unary main_cst main_call2_v0 (id : FVec F S_ .f32 → FVec F S_ .f32),
    StableHlo.unary main_call2_v0 main_call2_v1 ((broadcastInDim S8192x1024 ![] bcast_S_S8192x1024) : FVec F S_ .f32 → FVec F S8192x1024 .f32),
    StableHlo.binary main_call2_v1 main_v8 main_call2_v2 (maximumf : FVec F S8192x1024 .f32 → FVec F S8192x1024 .f32 → FVec F S8192x1024 .f32),
    StableHlo.unary main_cst_2 main_call2_v3 (id : FVec F S_ .f32 → FVec F S_ .f32),
    StableHlo.unary main_call2_v3 main_call2_v4 ((broadcastInDim S8192x1024 ![] bcast_S_S8192x1024) : FVec F S_ .f32 → FVec F S8192x1024 .f32),
    StableHlo.binary main_call2_v4 main_call2_v2 main_v10 (minimumf : FVec F S8192x1024 .f32 → FVec F S8192x1024 .f32 → FVec F S8192x1024 .f32),
    StableHlo.nullary main_cst_3 (constant S_ .f32 0x3F800000#32),
    StableHlo.unary main_cst_3 main_v11 ((broadcastInDim S8192x1024 ![] bcast_S_S8192x1024) : FVec F S_ .f32 → FVec F S8192x1024 .f32),
    StableHlo.binary main_v10 main_v11 main_v12 (addf : FVec F S8192x1024 .f32 → FVec F S8192x1024 .f32 → FVec F S8192x1024 .f32),
    StableHlo.nullary main_cst_4 (constant S_ .f32 0x3F000000#32),
    StableHlo.unary main_cst_4 main_v13 ((broadcastInDim S8192x1024 ![] bcast_S_S8192x1024) : FVec F S_ .f32 → FVec F S8192x1024 .f32),
    StableHlo.binary main_v12 main_v13 main_v14 (Host.divf : FVec F S8192x1024 .f32 → FVec F S8192x1024 .f32 → FVec F S8192x1024 .f32),
    StableHlo.unary main_v14 main_v15 (Host.floor : FVec F S8192x1024 .f32 → FVec F S8192x1024 .f32),
    StableHlo.nullary main_c_5 (constantI S_ 32 0#32),
    StableHlo.nullary main_c_6 (constantI S_ 32 3#32),
    StableHlo.unary main_c_5 main_call3_v0 ((sitofp .f32) : IVec S_ 32 → FVec F S_ .f32),
    StableHlo.unary main_call3_v0 main_call3_v1 ((broadcastInDim S8192x1024 ![] bcast_S_S8192x1024) : FVec F S_ .f32 → FVec F S8192x1024 .f32),
    StableHlo.binary main_call3_v1 main_v15 main_call3_v2 (maximumf : FVec F S8192x1024 .f32 → FVec F S8192x1024 .f32 → FVec F S8192x1024 .f32),
    StableHlo.unary main_c_6 main_call3_v3 ((sitofp .f32) : IVec S_ 32 → FVec F S_ .f32),
    StableHlo.unary main_call3_v3 main_call3_v4 ((broadcastInDim S8192x1024 ![] bcast_S_S8192x1024) : FVec F S_ .f32 → FVec F S8192x1024 .f32),
    StableHlo.binary main_call3_v4 main_call3_v2 main_v16 (minimumf : FVec F S8192x1024 .f32 → FVec F S8192x1024 .f32 → FVec F S8192x1024 .f32),
    StableHlo.unary main_v16 main_v17 ((fptosi 32) : FVec F S8192x1024 .f32 → IVec S8192x1024 32),
    StableHlo.unary main_v17 main_v18 ((sitofp .f32) : IVec S8192x1024 32 → FVec F S8192x1024 .f32),
    StableHlo.binary main_v14 main_v18 main_v19 (subf : FVec F S8192x1024 .f32 → FVec F S8192x1024 .f32 → FVec F S8192x1024 .f32),
    StableHlo.nullary main_v20 (iotaInDim S1024 32 0),
    StableHlo.unary main_v20 main_v21 ((broadcastInDim S1x1024 ![1] bcast_S1024_S1x1024_1) : IVec S1024 32 → IVec S1x1024 32),
    StableHlo.nullary main_c_7 (constantI S_ 32 0#32),
    StableHlo.unary main_c_7 main_v22 ((broadcastInDim S1x1024 ![] bcast_S_S1x1024) : IVec S_ 32 → IVec S1x1024 32),
    StableHlo.binary main_v21 main_v22 main_v23 ((cmpi .slt) : IVec S1x1024 32 → IVec S1x1024 32 → IVec S1x1024 1),
    StableHlo.nullary main_c_8 (constantI S_ 32 1024#32),
    StableHlo.unary main_c_8 main_v24 ((broadcastInDim S1x1024 ![] bcast_S_S1x1024) : IVec S_ 32 → IVec S1x1024 32),
    StableHlo.binary main_v21 main_v24 main_v25 (addi : IVec S1x1024 32 → IVec S1x1024 32 → IVec S1x1024 32),
    StableHlo.ternary main_v23 main_v25 main_v21 main_v26 (select : IVec S1x1024 1 → IVec S1x1024 32 → IVec S1x1024 32 → IVec S1x1024 32),
    StableHlo.nullary main_c_9 (constantI S_ 32 0#32),
    StableHlo.unary main_c_9 main_v27 ((broadcastInDim S8192x1024 ![] bcast_S_S8192x1024) : IVec S_ 32 → IVec S8192x1024 32),
    StableHlo.binary main_v17 main_v27 main_v28 ((cmpi .slt) : IVec S8192x1024 32 → IVec S8192x1024 32 → IVec S8192x1024 1),
    StableHlo.nullary main_c_10 (constantI S_ 32 5#32),
    StableHlo.unary main_c_10 main_v29 ((broadcastInDim S8192x1024 ![] bcast_S_S8192x1024) : IVec S_ 32 → IVec S8192x1024 32),
    StableHlo.binary main_v17 main_v29 main_v30 (addi : IVec S8192x1024 32 → IVec S8192x1024 32 → IVec S8192x1024 32),
    StableHlo.ternary main_v28 main_v30 main_v17 main_v31 (select : IVec S8192x1024 1 → IVec S8192x1024 32 → IVec S8192x1024 32 → IVec S8192x1024 32),
    StableHlo.unary main_v26 main_v32 ((broadcastInDim S8192x1024 ![0, 1] bcast_S1x1024_S8192x1024_0_1) : IVec S1x1024 32 → IVec S8192x1024 32),
    StableHlo.unary main_v32 main_v33 ((broadcastInDim S8192x1024x1 ![0, 1] bcast_S8192x1024_S8192x1024x1_0_1) : IVec S8192x1024 32 → IVec S8192x1024x1 32),
    StableHlo.unary main_v31 main_v34 ((broadcastInDim S8192x1024x1 ![0, 1] bcast_S8192x1024_S8192x1024x1_0_1) : IVec S8192x1024 32 → IVec S8192x1024x1 32),
    StableHlo.binary main_v33 main_v34 main_v35 (pairLast : IVec S8192x1024x1 32 → IVec S8192x1024x1 32 → IVec S8192x1024x2 32),
    StableHlo.binary main_arg1 main_v35 main_v36 ((fun x i => Host.gather gather_S1024x5_S8192x1024x2_S8192x1024_n_01_n_n_01_2_11 x i) : FVec F S1024x5 .f32 → IVec S8192x1024x2 32 → FVec F S8192x1024 .f32),
    StableHlo.nullary main_c_11 (constantI S_ 32 1#32),
    StableHlo.unary main_c_11 main_v37 ((broadcastInDim S8192x1024 ![] bcast_S_S8192x1024) : IVec S_ 32 → IVec S8192x1024 32),
    StableHlo.binary main_v17 main_v37 main_v38 (addi : IVec S8192x1024 32 → IVec S8192x1024 32 → IVec S8192x1024 32),
    StableHlo.nullary main_c_12 (constantI S_ 32 0#32),
    StableHlo.unary main_c_12 main_v39 ((broadcastInDim S1x1024 ![] bcast_S_S1x1024) : IVec S_ 32 → IVec S1x1024 32),
    StableHlo.binary main_v21 main_v39 main_v40 ((cmpi .slt) : IVec S1x1024 32 → IVec S1x1024 32 → IVec S1x1024 1),
    StableHlo.nullary main_c_13 (constantI S_ 32 1024#32),
    StableHlo.unary main_c_13 main_v41 ((broadcastInDim S1x1024 ![] bcast_S_S1x1024) : IVec S_ 32 → IVec S1x1024 32),
    StableHlo.binary main_v21 main_v41 main_v42 (addi : IVec S1x1024 32 → IVec S1x1024 32 → IVec S1x1024 32),
    StableHlo.ternary main_v40 main_v42 main_v21 main_v43 (select : IVec S1x1024 1 → IVec S1x1024 32 → IVec S1x1024 32 → IVec S1x1024 32) ]

/-- The second window's 32 operations, in order. -/
abbrev ops1 : List (HloOp τ sig (Elt F)) :=
  [
    StableHlo.nullary main_c_14 (constantI S_ 32 0#32),
    StableHlo.unary main_c_14 main_v44 ((broadcastInDim S8192x1024 ![] bcast_S_S8192x1024) : IVec S_ 32 → IVec S8192x1024 32),
    StableHlo.binary main_v38 main_v44 main_v45 ((cmpi .slt) : IVec S8192x1024 32 → IVec S8192x1024 32 → IVec S8192x1024 1),
    StableHlo.nullary main_c_15 (constantI S_ 32 5#32),
    StableHlo.unary main_c_15 main_v46 ((broadcastInDim S8192x1024 ![] bcast_S_S8192x1024) : IVec S_ 32 → IVec S8192x1024 32),
    StableHlo.binary main_v38 main_v46 main_v47 (addi : IVec S8192x1024 32 → IVec S8192x1024 32 → IVec S8192x1024 32),
    StableHlo.ternary main_v45 main_v47 main_v38 main_v48 (select : IVec S8192x1024 1 → IVec S8192x1024 32 → IVec S8192x1024 32 → IVec S8192x1024 32),
    StableHlo.unary main_v43 main_v49 ((broadcastInDim S8192x1024 ![0, 1] bcast_S1x1024_S8192x1024_0_1) : IVec S1x1024 32 → IVec S8192x1024 32),
    StableHlo.unary main_v49 main_v50 ((broadcastInDim S8192x1024x1 ![0, 1] bcast_S8192x1024_S8192x1024x1_0_1) : IVec S8192x1024 32 → IVec S8192x1024x1 32),
    StableHlo.unary main_v48 main_v51 ((broadcastInDim S8192x1024x1 ![0, 1] bcast_S8192x1024_S8192x1024x1_0_1) : IVec S8192x1024 32 → IVec S8192x1024x1 32),
    StableHlo.binary main_v50 main_v51 main_v52 (pairLast : IVec S8192x1024x1 32 → IVec S8192x1024x1 32 → IVec S8192x1024x2 32),
    StableHlo.binary main_arg1 main_v52 main_v53 ((fun x i => Host.gather gather_S1024x5_S8192x1024x2_S8192x1024_n_01_n_n_01_2_11 x i) : FVec F S1024x5 .f32 → IVec S8192x1024x2 32 → FVec F S8192x1024 .f32),
    StableHlo.nullary main_cst_16 (constant S_ .f32 0x3F800000#32),
    StableHlo.unary main_cst_16 main_v54 ((broadcastInDim S8192x1024 ![] bcast_S_S8192x1024) : FVec F S_ .f32 → FVec F S8192x1024 .f32),
    StableHlo.binary main_v54 main_v19 main_v55 (subf : FVec F S8192x1024 .f32 → FVec F S8192x1024 .f32 → FVec F S8192x1024 .f32),
    StableHlo.binary main_v36 main_v55 main_v56 (mulf : FVec F S8192x1024 .f32 → FVec F S8192x1024 .f32 → FVec F S8192x1024 .f32),
    StableHlo.binary main_v53 main_v19 main_v57 (mulf : FVec F S8192x1024 .f32 → FVec F S8192x1024 .f32 → FVec F S8192x1024 .f32),
    StableHlo.binary main_v56 main_v57 main_v58 (addf : FVec F S8192x1024 .f32 → FVec F S8192x1024 .f32 → FVec F S8192x1024 .f32),
    StableHlo.unary main_arg2 main_v59 ((extractStridedSlice S1024x1 ![0, 0] · slices_S1024x2_S1024x1_0_0) : FVec F S1024x2 .f32 → FVec F S1024x1 .f32),
    StableHlo.reshape main_v59 main_v60 rfl shapeCasts_S1024x1_S1024,
    StableHlo.unary main_v60 main_v61 ((broadcastInDim S1x1024 ![1] bcast_S1024_S1x1024_1) : FVec F S1024 .f32 → FVec F S1x1024 .f32),
    StableHlo.unary main_v61 main_v62 ((broadcastInDim S8192x1024 ![0, 1] bcast_S1x1024_S8192x1024_0_1) : FVec F S1x1024 .f32 → FVec F S8192x1024 .f32),
    StableHlo.binary main_v9 main_v62 main_v63 (mulf : FVec F S8192x1024 .f32 → FVec F S8192x1024 .f32 → FVec F S8192x1024 .f32),
    StableHlo.unary main_arg2 main_v64 ((extractStridedSlice S1024x1 ![0, 1] · slices_S1024x2_S1024x1_0_1) : FVec F S1024x2 .f32 → FVec F S1024x1 .f32),
    StableHlo.reshape main_v64 main_v65 rfl shapeCasts_S1024x1_S1024,
    StableHlo.unary main_v65 main_v66 ((broadcastInDim S1x1024 ![1] bcast_S1024_S1x1024_1) : FVec F S1024 .f32 → FVec F S1x1024 .f32),
    StableHlo.unary main_v66 main_v67 ((broadcastInDim S8192x1024 ![0, 1] bcast_S1x1024_S8192x1024_0_1) : FVec F S1x1024 .f32 → FVec F S8192x1024 .f32),
    StableHlo.binary main_v58 main_v67 main_v68 (mulf : FVec F S8192x1024 .f32 → FVec F S8192x1024 .f32 → FVec F S8192x1024 .f32),
    StableHlo.binary main_v63 main_v68 main_v69 (addf : FVec F S8192x1024 .f32 → FVec F S8192x1024 .f32 → FVec F S8192x1024 .f32),
    StableHlo.unary main_arg3 main_v70 ((broadcastInDim S1x1024 ![1] bcast_S1024_S1x1024_1) : FVec F S1024 .f32 → FVec F S1x1024 .f32),
    StableHlo.unary main_v70 main_v71 ((broadcastInDim S8192x1024 ![0, 1] bcast_S1x1024_S8192x1024_0_1) : FVec F S1x1024 .f32 → FVec F S8192x1024 .f32),
    StableHlo.binary main_v69 main_v71 main_v72 (addf : FVec F S8192x1024 .f32 → FVec F S8192x1024 .f32 → FVec F S8192x1024 .f32) ]

/-- The reference's 130 operations, in order. -/
abbrev ops : List (HloOp τ sig (Elt F)) := ops0 ++ ops1

set_option maxRecDepth 8192 in
/-- The first window is its operations run in order: the callees' definitions unfolded at their calls, sequencing
    reassociated, and a callee's operation over the call's typed buffers the same operation over the buffers. -/
theorem main_part0_eq (c : Dev nD) : main_part0 (F := F) c = seq ops0 := by
  simp only [main_part0, fn_remainder.body, fn_where.body, fn_silu.body, fn_clip.body, fn_clip_0.body, seq, bind_assoc, pure_bind]
  rfl

set_option maxRecDepth 8192 in
theorem main_part1_eq (c : Dev nD) : main_part1 (F := F) c = seq ops1 := rfl

set_option maxRecDepth 8192 in
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub ..⟩

set_option maxRecDepth 8192 in
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., unary_bufs_sub .., binary_bufs_sub .., binary_bufs_sub .., binary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

/-- From any memory with zero counters every weakly fair execution of the reference terminates, and every
    TensorCore buffer ends at the fold of the 130 operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefFold.lean ====
/-
  The fold of the reference's operations at the result buffer is the last of the named values.

  Running the 130 operations in order from contents V leaves, in the result buffer, the value defined for it over
  the four argument arrays as V holds them; and no operation writes an argument buffer.
-/
import proofs.«165169_j1108101562900_2_alg».proof.Proof.RefRun
import proofs.«165169_j1108101562900_2_alg».proof.Proof.RefTerm

noncomputable section

namespace Cert.ReferenceIdeal.RefFold

open Cert.ReferenceIdeal Cert.ReferenceIdeal.Gen Cert.ReferenceIdeal.RefRun Cert.ReferenceIdeal.RefTerm
open Idealize.ShloMosaic Idealize.ShloMosaic.TcCoe Idealize.SL.Sem Idealize.ShloMosaic.StableHlo

variable {F : FTy → Type} [FloatOps F]

/-- The first weight column's reshape, read at its result buffer: the one-column matrix as a vector. -/
theorem reshape_v60 (W : Valuation τ sig (Elt F)) :
    (StableHlo.reshape (τ := τ) (Val := Elt F) main_v59 main_v60 rfl shapeCasts_S1024x1_S1024).result W (no_index (Proc.devRef .tc main_v60))
      = shapeCast (s := S1024x1) (α := F .f32) S1024 (W (Proc.devRef .tc main_v59)) shapeCasts_S1024x1_S1024 := by
  rw [reshape_result']
  rfl

/-- The second weight column's reshape, read at its result buffer. -/
theorem reshape_v65 (W : Valuation τ sig (Elt F)) :
    (StableHlo.reshape (τ := τ) (Val := Elt F) main_v64 main_v65 rfl shapeCasts_S1024x1_S1024).result W (no_index (Proc.devRef .tc main_v65))
      = shapeCast (s := S1024x1) (α := F .f32) S1024 (W (Proc.devRef .tc main_v64)) shapeCasts_S1024x1_S1024 := by
  rw [reshape_result']
  rfl

set_option maxRecDepth 16384 in
set_option maxHeartbeats 8000000 in
/-- The result buffer after the 130 operations holds the value defined for it: each operation's result at its own
    buffer is its function of its operands' buffers, every other buffer keeps what it held, and the definitions
    unfolded are the same term (up to the proofs of side conditions they carry). -/
theorem out_eq (V : Valuation τ sig (Elt F)) :
    after ops V (Proc.devRef .tc main_v72)
      = v_main_v72 (V (Proc.devRef .tc main_arg0)) (V (Proc.devRef .tc main_arg1)) (V (Proc.devRef .tc main_arg2))
          (V (Proc.devRef .tc main_arg3)) := by
  simp only [ops, ops0, ops1, List.cons_append, List.nil_append]
  simp (disch := decide) only [after_cons, after_nil, reshape_v60, reshape_v65,
    nullary_result', unary_result', binary_result', ternary_result',
    nullary_result_ne', unary_result_ne', binary_result_ne', ternary_result_ne', reshape_result_ne']
  simp only [v_main_v72, v_main_v71, v_main_v70, v_main_v69, v_main_v68, v_main_v67, v_main_v66, v_main_v65, v_main_v64, v_main_v63, v_main_v62, v_main_v61, v_main_v60, v_main_v59, v_main_v58, v_main_v57, v_main_v56, v_main_v55, v_main_v54, v_main_cst_16, v_main_v53, v_main_v52, v_main_v51, v_main_v50, v_main_v49, v_main_v48, v_main_v47, v_main_v46, v_main_c_15, v_main_v45, v_main_v44, v_main_c_14, v_main_v43, v_main_v42, v_main_v41, v_main_c_13, v_main_v40, v_main_v39, v_main_c_12, v_main_v38, v_main_v37, v_main_c_11, v_main_v36, v_main_v35, v_main_v34, v_main_v33, v_main_v32, v_main_v31, v_main_v30, v_main_v29, v_main_c_10, v_main_v28, v_main_v27, v_main_c_9, v_main_v26, v_main_v25, v_main_v24, v_main_c_8, v_main_v23, v_main_v22, v_main_c_7, v_main_v21, v_main_v20, v_main_v19, v_main_v18, v_main_v17, v_main_v16, v_main_call3_v4, v_main_call3_v3, v_main_call3_v2, v_main_call3_v1, v_main_call3_v0, v_main_c_6, v_main_c_5, v_main_v15, v_main_v14, v_main_v13, v_main_cst_4, v_main_v12, v_main_v11, v_main_cst_3, v_main_v10, v_main_call2_v4, v_main_call2_v3, v_main_call2_v2, v_main_call2_v1, v_main_call2_v0, v_main_cst_2, v_main_cst, v_main_v9, v_main_call1_v5, v_main_call1_v4, v_main_call1_cst_0, v_main_call1_v3, v_main_call1_v2, v_main_call1_cst, v_main_call1_v1, v_main_call1_v0, v_main_v8, v_main_v7, v_main_v6, v_main_v5, v_main_v4, v_main_c_1, v_main_v3, v_main_v2, v_main_c_0, v_main_v1, v_main_call0_v14, v_main_call0_v13, v_main_call0_v12, v_main_call0_v11, v_main_call0_v10, v_main_call0_v9, v_main_call0_c_3, v_main_call0_v8, v_main_call0_v7, v_main_call0_c_2, v_main_call0_v6, v_main_call0_v5, v_main_call0_c_1, v_main_call0_v4, v_main_call0_v3, v_main_call0_v2, v_main_call0_c_0, v_main_call0_v1, v_main_call0_c, v_main_call0_v0, v_main_c, v_main_v0] <;> with_reducible rfl

set_option maxRecDepth 16384 in
set_option maxHeartbeats 4000000 in
theorem arg0_eq (V : Valuation τ sig (Elt F)) : after ops V (Proc.devRef .tc main_arg0) = V (Proc.devRef .tc main_arg0) := by
  simp only [ops, ops0, ops1, List.cons_append, List.nil_append]
  after_results_simp
set_option maxRecDepth 16384 in
set_option maxHeartbeats 4000000 in
theorem arg1_eq (V : Valuation τ sig (Elt F)) : after ops V (Proc.devRef .tc main_arg1) = V (Proc.devRef .tc main_arg1) := by
  simp only [ops, ops0, ops1, List.cons_append, List.nil_append]
  after_results_simp
set_option maxRecDepth 16384 in
set_option maxHeartbeats 4000000 in
theorem arg2_eq (V : Valuation τ sig (Elt F)) : after ops V (Proc.devRef .tc main_arg2) = V (Proc.devRef .tc main_arg2) := by
  simp only [ops, ops0, ops1, List.cons_append, List.nil_append]
  after_results_simp
set_option maxRecDepth 16384 in
set_option maxHeartbeats 4000000 in
theorem arg3_eq (V : Valuation τ sig (Elt F)) : after ops V (Proc.devRef .tc main_arg3) = V (Proc.devRef .tc main_arg3) := by
  simp only [ops, ops0, ops1, List.cons_append, List.nil_append]
  after_results_simp

end Cert.ReferenceIdeal.RefFold

end
-- ==== Proof.SpecLaw.lean ====
/-
  The two entry formulas agree on real inputs.

  For a real x the grid coordinate t = 2 · (clip(x, -1, 1) + 1) lies in [0, 4], so ⌊t⌋ ∈ {0, …, 4} and the segment
  n = min(⌊t⌋, 3) is one of 0, 1, 2, 3. Comparing n against 3, 2, 1, 0 therefore always selects cₙ (never the
  fallback zero); clipping ⌊t⌋ into [0, 3] gives the same n, its conversion to a 32-bit integer and back is exact,
  it is not negative (no wrap-around) and n, n + 1 ≤ 4 are inside the five coefficients. What is left is
      cₙ · (1 - (t - n)) + cₙ₊₁ · (t - n) = cₙ + (t - n) · (cₙ₊₁ - cₙ),
  the distributive law on real numbers.
-/
import proofs.«165169_j1108101562900_2_alg».proof.Proof.Spec

noncomputable section

namespace Cert.Kan

open Idealize.ShloMosaic Idealize.ShloMosaic.ValueIdx

theorem coe_max' (r s : ℝ) : ((max r s : ℝ) : EReal) = max (r : EReal) (s : EReal) :=
  EReal.coe_strictMono.monotone.map_max
theorem coe_min' (r s : ℝ) : ((min r s : ℝ) : EReal) = min (r : EReal) (s : EReal) :=
  EReal.coe_strictMono.monotone.map_min

/-- The grid coordinate of a real input, as a real number. -/
def tR (x : ℝ) : ℝ := (min 1 (max (-1) x) + 1) * 2

theorem tOf_coe (x : ℝ) : tOf (x : EReal) = ((tR x : ℝ) : EReal) := by
  unfold tOf tR
  rw [lit_one, lit_neg_one, lit_half, ← coe_max', ← coe_min', ← EReal.coe_add,
    Ideal.div_coe (by norm_num : (1 / 2 : ℝ) ≠ 0), ← EReal.coe_mul]
  congr 1; norm_num

theorem tR_nonneg (x : ℝ) : 0 ≤ tR x := by
  unfold tR
  have : (-1 : ℝ) ≤ min 1 (max (-1) x) := le_min (by norm_num) (le_max_left _ _)
  linarith

theorem tR_le (x : ℝ) : tR x ≤ 4 := by
  unfold tR
  have : min 1 (max (-1) x) ≤ (1 : ℝ) := min_le_left _ _
  linarith

/-- The segment of a real input, as an integer. -/
def segZ (x : ℝ) : ℤ := min ⌊tR x⌋ 3

theorem segZ_nonneg (x : ℝ) : 0 ≤ segZ x := le_min (Int.floor_nonneg.mpr (tR_nonneg x)) (by norm_num)
theorem segZ_le (x : ℝ) : segZ x ≤ 3 := min_le_right _ _

theorem segOf_coe (x : ℝ) : segOf (x : EReal) = (((segZ x : ℤ) : ℝ) : EReal) := by
  unfold segOf segZ
  rw [tOf_coe, Ideal.liftRound_coe, lit_three, ← coe_min', Int.cast_min]
  norm_num

/-- A real integer between 0 and 3 converts to the 32-bit integer of the same value. -/
theorem fptosi_int (n : ℤ) (h0 : 0 ≤ n) (h3 : n ≤ 3) : Ideal.fptosi 32 (((n : ℤ) : ℝ) : EReal) = BitVec.ofInt 32 n := by
  unfold Ideal.fptosi
  congr 1
  show max _ (min _ (if (0 : ℝ) ≤ ((n : ℤ) : ℝ) then ⌊((n : ℤ) : ℝ)⌋ else ⌈((n : ℤ) : ℝ)⌉)) = n
  rw [if_pos (by exact_mod_cast h0), Int.floor_intCast]
  norm_num
  omega

theorem segI_coe (x : ℝ) : segI (x : EReal) = BitVec.ofInt 32 (segZ x) := by
  unfold segI
  have e3 : (3#32 : BitVec 32).toInt = 3 := by decide
  have e0 : (0#32 : BitVec 32).toInt = 0 := by decide
  have hf : 0 ≤ ⌊tR x⌋ := Int.floor_nonneg.mpr (tR_nonneg x)
  rw [e3, e0, tOf_coe, Ideal.liftRound_coe, ← coe_max', ← coe_min', ← Int.cast_max, ← Int.cast_min]
  have : min (3 : ℤ) (max 0 ⌊tR x⌋) = segZ x := by unfold segZ; omega
  rw [this]
  exact fptosi_int _ (segZ_nonneg x) (segZ_le x)

/-! ## The select chain at each of the four segments -/

/-- Comparing two real numbers for equality as extended reals is comparing them as reals. -/
theorem cmp_oeq_coe (a b : ℝ) : Ideal.cmp .oeq ((a : ℝ) : EReal) ((b : ℝ) : EReal) = BitVec.ofBool (decide (a = b)) := by
  unfold Ideal.cmp
  simp only [EReal.coe_eq_coe_iff]

/-- A select on the truth value of a proposition is the if-then-else on it. -/
theorem select_ofBool (p : Prop) [Decidable p] (u v : EReal) :
    Scalar.select (BitVec.ofBool (decide p)) u v = if p then u else v := by
  by_cases h : p <;> simp [Scalar.select, h]

/-- The select chain on a real segment value: the first of 3, 2, 1, 0 it equals decides. -/
theorem pick_coe (k : ℝ) (a3 a2 a1 a0 : EReal) :
    pick (k : EReal) a3 a2 a1 a0
      = if k = 3 then a3 else if k = 2 then a2 else if k = 1 then a1 else if k = 0 then a0 else ((0 : ℝ) : EReal) := by
  unfold pick
  rw [lit_three, lit_two, lit_one, lit_zero]
  simp only [cmp_oeq_coe, select_ofBool]

theorem pick_three (a3 a2 a1 a0 : EReal) : pick (((3 : ℤ) : ℝ) : EReal) a3 a2 a1 a0 = a3 := by
  rw [pick_coe]; norm_num
theorem pick_two (a3 a2 a1 a0 : EReal) : pick (((2 : ℤ) : ℝ) : EReal) a3 a2 a1 a0 = a2 := by
  rw [pick_coe]; norm_num
theorem pick_one (a3 a2 a1 a0 : EReal) : pick (((1 : ℤ) : ℝ) : EReal) a3 a2 a1 a0 = a1 := by
  rw [pick_coe]; norm_num
theorem pick_zero (a3 a2 a1 a0 : EReal) : pick (((0 : ℤ) : ℝ) : EReal) a3 a2 a1 a0 = a0 := by
  rw [pick_coe]; norm_num

/-- Linear interpolation in its two spellings, on real numbers. -/
theorem lerp_eq (a c t m : ℝ) :
    (a : EReal) * (((1 : ℝ) : EReal) - ((t : EReal) - (m : EReal))) + (c : EReal) * ((t : EReal) - (m : EReal))
      = (a : EReal) + ((t : EReal) - (m : EReal)) * ((c : EReal) - (a : EReal)) := by
  norm_cast
  ring

/-- The silu factor in its two spellings. -/
theorem silu_eq (x : EReal) :
    Ideal.div (Ideal.ofBits .f32 0x3F800000#32) (Ideal.ofBits .f32 0x3F800000#32 + Ideal.exp (-x)) = Ideal.logistic x := by
  rw [lit_one, EReal.coe_one]; rfl

/-- THE TWO ENTRY FORMULAS AGREE for a real input and real coefficients (any weights and bias). -/
theorem cellR_eq_cellK (x : ℝ) (cr : Fin 5 → ℝ) (w0 w1 b : EReal) :
    cellR (x : EReal) (fun k => ((cr k : ℝ) : EReal)) w0 w1 b
      = cellK (x : EReal) (cr 0) (cr 1) (cr 2) (cr 3) (cr 4) w0 w1 b := by
  unfold cellR cellK fracOf
  rw [silu_eq, segI_coe, segOf_coe, tOf_coe, lit_one]
  have h0 := segZ_nonneg x
  have h3 := segZ_le x
  generalize segZ x = n at h0 h3 ⊢
  generalize tR x = t
  interval_cases n
  · rw [pick_zero, pick_zero,
      show GatherAxis0.row 5 (by decide) (wrap5 (BitVec.ofInt 32 0)) = (0 : Fin 5) from by decide,
      show GatherAxis0.row 5 (by decide) (wrap5 (IntOp.addi (BitVec.ofInt 32 0) 1#32)) = (1 : Fin 5) from by decide,
      show (BitVec.ofInt 32 0).toInt = 0 from by decide]
    exact congrArg (fun s => (x : EReal) * Ideal.logistic x * w0 + s * w1 + b) (lerp_eq (cr 0) (cr 1) t ((0 : ℤ) : ℝ))
  · rw [pick_one, pick_one,
      show GatherAxis0.row 5 (by decide) (wrap5 (BitVec.ofInt 32 1)) = (1 : Fin 5) from by decide,
      show GatherAxis0.row 5 (by decide) (wrap5 (IntOp.addi (BitVec.ofInt 32 1) 1#32)) = (2 : Fin 5) from by decide,
      show (BitVec.ofInt 32 1).toInt = 1 from by decide]
    exact congrArg (fun s => (x : EReal) * Ideal.logistic x * w0 + s * w1 + b) (lerp_eq (cr 1) (cr 2) t ((1 : ℤ) : ℝ))
  · rw [pick_two, pick_two,
      show GatherAxis0.row 5 (by decide) (wrap5 (BitVec.ofInt 32 2)) = (2 : Fin 5) from by decide,
      show GatherAxis0.row 5 (by decide) (wrap5 (IntOp.addi (BitVec.ofInt 32 2) 1#32)) = (3 : Fin 5) from by decide,
      show (BitVec.ofInt 32 2).toInt = 2 from by decide]
    exact congrArg (fun s => (x : EReal) * Ideal.logistic x * w0 + s * w1 + b) (lerp_eq (cr 2) (cr 3) t ((2 : ℤ) : ℝ))
  · rw [pick_three, pick_three,
      show GatherAxis0.row 5 (by decide) (wrap5 (BitVec.ofInt 32 3)) = (3 : Fin 5) from by decide,
      show GatherAxis0.row 5 (by decide) (wrap5 (IntOp.addi (BitVec.ofInt 32 3) 1#32)) = (4 : Fin 5) from by decide,
      show (BitVec.ofInt 32 3).toInt = 3 from by decide]
    exact congrArg (fun s => (x : EReal) * Ideal.logistic x * w0 + s * w1 + b) (lerp_eq (cr 3) (cr 4) t ((3 : ℤ) : ℝ))

end Cert.Kan

end
-- ==== Proof.LibGatherCols.lean ====
/-
  `stablehlo.gather` of whole columns at one column of start indices, read at an index.

  What `x[:, idx]` lowers to when `idx : [E]` is viewed as `[E, 1]` (index_vector_dim 1): for a table
  `x : [N, D]` the result `[N, E]` (offset axis 0, whole columns: slice sizes `[N, 1]`, the column axis collapsed).
  Result entry `(k, e)` is the table at row `k` and at the column `idx[e, 0]` read as a signed integer and clamped
  into `[0, D - 1]`.
-/
import Idealize.ShloMosaic.Lib.ValueIdx
import proofs.«165169_j1108101562900_2_alg».proof.Proof.LibGatherAxis0

noncomputable section

namespace Idealize.ShloMosaic.GatherCols

open Idealize.ShloMosaic Idealize.ShloMosaic.ValueIdx

variable {α : Type}

/-- The dimension numbers of a table `[N, D]` gathered whole-column at start indices `[E, 1]` into `[N, E]`. -/
abbrev colsDims (N D E : Nat)
    (wf : GatherDims.WF ⟨2, ![N, D]⟩ ⟨2, ![E, 1]⟩ ⟨2, ![N, E]⟩ [0] [1] [] [1] [] 1 ![N, 1]) :
    GatherDims ⟨2, ![N, D]⟩ ⟨2, ![E, 1]⟩ ⟨2, ![N, E]⟩ where
  offsetDims := [0]
  collapsedSliceDims := [1]
  operandBatchingDims := []
  startIndicesBatchingDims := []
  startIndexMap := [1]
  indexVectorDim := 1
  sliceSizes := ![N, 1]
  wf := wf

/-- THE COLUMN GATHER READ AT `(k, e)`: the table at row `k` and at the column `idx[e, 0]`, read signed and clamped
    into `[0, D - 1]`. -/
theorem gather_cols_apply {N D E w : Nat} (hD : 0 < D)
    (wf : GatherDims.WF ⟨2, ![N, D]⟩ ⟨2, ![E, 1]⟩ ⟨2, ![N, E]⟩ [0] [1] [] [1] [] 1 ![N, 1])
    (x : (⟨2, ![N, D]⟩ : Shape).Idx → α) (idx : IVec ⟨2, ![E, 1]⟩ w) (k : Fin N) (e : Fin E) :
    Host.gather (colsDims N D E wf) x idx (ix2 k e)
      = x (ix2 k (GatherAxis0.row D hD (idx (GatherAxis0.colIdx e)))) := by
  unfold Host.gather
  congr 1
  funext a
  refine Fin.ext ?_
  match a with
  | ⟨0, _⟩ =>
    show (colsDims N D E wf).start (ix2 k e) idx 0 + (colsDims N D E wf).batchCoord (ix2 k e) 0
      + (colsDims N D E wf).offCoord (ix2 k e) 0 = k.val
    rw [GatherDims.batchCoord_eq_zero _ _ _ List.not_mem_nil]
    unfold GatherDims.start
    rw [dif_neg (show (0 : Fin 2) ∉ (colsDims N D E wf).startIndexMap from
      fun h => absurd (List.mem_singleton.mp h) (show ¬ (0 : Fin 2) = 1 by decide))]
    simp only [Nat.add_zero, Nat.zero_add]
    unfold GatherDims.offCoord
    rw [dif_pos (show (0 : Fin 2) ∈ (colsDims N D E wf).sKept from
      (GatherDims.mem_sKept _ _).mpr ⟨fun h => absurd (List.mem_singleton.mp h) (show ¬ (0 : Fin 2) = 1 by decide), List.not_mem_nil⟩)]
    rfl
  | ⟨1, _⟩ =>
    show (colsDims N D E wf).start (ix2 k e) idx 1 + (colsDims N D E wf).batchCoord (ix2 k e) 1
      + (colsDims N D E wf).offCoord (ix2 k e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims N D E wf).startIndexMap from List.mem_singleton.mpr rfl)]
    have hsi : (colsDims N D E wf).siIdx (ix2 k e) ⟨List.idxOf (1 : Fin 2) (colsDims N D E wf).startIndexMap,
        List.idxOf_lt_length_iff.2 (List.mem_singleton.mpr rfl)⟩ = GatherAxis0.colIdx e := by
      funext b; refine Fin.ext ?_
      match b with
      | ⟨0, _⟩ => rfl
      | ⟨1, _⟩ => rfl
    rw [hsi]
    rfl

end Idealize.ShloMosaic.GatherCols

end
-- ==== Proof.LibGatherGrid2.lean ====
/-
  `stablehlo.gather` of single elements of a matrix at two-component start indices laid out on a grid, read at an
  index.

  What `x[rows, cols]` lowers to for `rows` and `cols` broadcast to one shape `[R, Q]`: the operand `x : [N, C]`,
  start indices `[R, Q, 2]` (index_vector_dim 2, both operand axes collapsed and both named by the start index
  map, slice sizes `[1, 1]`), result `[R, Q]`. Result entry `(r, q)` is the operand at the row `idx[r, q, 0]` and
  the column `idx[r, q, 1]`, each read as a signed integer and clamped into its axis.
-/
import Idealize.ShloMosaic.Lib.ValueIdx
import proofs.«165169_j1108101562900_2_alg».proof.Proof.LibGatherAxis0

noncomputable section

namespace Idealize.ShloMosaic.GatherGrid2

open Idealize.ShloMosaic Idealize.ShloMosaic.ValueIdx

variable {α : Type}

/-- The dimension numbers of a matrix `[N, C]` gathered element by element at start indices `[R, Q, 2]` into `[R, Q]`. -/
abbrev gridDims (N C R Q : Nat)
    (wf : GatherDims.WF ⟨2, ![N, C]⟩ ⟨3, ![R, Q, 2]⟩ ⟨2, ![R, Q]⟩ [] [0, 1] [] [0, 1] [] 2 ![1, 1]) :
    GatherDims ⟨2, ![N, C]⟩ ⟨3, ![R, Q, 2]⟩ ⟨2, ![R, Q]⟩ where
  offsetDims := []
  collapsedSliceDims := [0, 1]
  operandBatchingDims := []
  startIndicesBatchingDims := []
  startIndexMap := [0, 1]
  indexVectorDim := 2
  sliceSizes := ![1, 1]
  wf := wf

/-- THE GRID GATHER READ AT `(r, q)`: the operand at the row `idx[r, q, 0]` and the column `idx[r, q, 1]`, each read
    signed and clamped into its axis. -/
theorem gather_grid_apply {N C R Q w : Nat} (hN : 0 < N) (hC : 0 < C)
    (wf : GatherDims.WF ⟨2, ![N, C]⟩ ⟨3, ![R, Q, 2]⟩ ⟨2, ![R, Q]⟩ [] [0, 1] [] [0, 1] [] 2 ![1, 1])
    (x : (⟨2, ![N, C]⟩ : Shape).Idx → α) (idx : IVec ⟨3, ![R, Q, 2]⟩ w) (r : Fin R) (q : Fin Q) :
    Host.gather (gridDims N C R Q wf) x idx (ix2 r q)
      = x (ix2 (GatherAxis0.row N hN (idx (ix3 r q (0 : Fin 2)))) (GatherAxis0.row C hC (idx (ix3 r q (1 : Fin 2))))) := by
  unfold Host.gather
  congr 1
  funext a
  refine Fin.ext ?_
  match a with
  | ⟨0, _⟩ =>
    show (gridDims N C R Q wf).start (ix2 r q) idx 0 + (gridDims N C R Q wf).batchCoord (ix2 r q) 0
      + (gridDims N C R Q wf).offCoord (ix2 r q) 0 = _
    rw [GatherDims.batchCoord_eq_zero _ _ _ List.not_mem_nil,
      GatherDims.offCoord_eq_zero _ _ _ (fun h => ((GatherDims.mem_sKept _ _).mp h).1 (show (0 : Fin 2) ∈ [(0 : Fin 2), 1] from List.mem_cons_self))]
    simp only [Nat.add_zero]
    unfold GatherDims.start
    rw [dif_pos (show (0 : Fin 2) ∈ (gridDims N C R Q wf).startIndexMap from (show (0 : Fin 2) ∈ [(0 : Fin 2), 1] from List.mem_cons_self))]
    have hsi : (gridDims N C R Q wf).siIdx (ix2 r q) ⟨List.idxOf (0 : Fin 2) (gridDims N C R Q wf).startIndexMap,
        List.idxOf_lt_length_iff.2 (show (0 : Fin 2) ∈ [(0 : Fin 2), 1] from List.mem_cons_self)⟩ = ix3 r q (0 : Fin 2) := by
      funext b; refine Fin.ext ?_
      match b with
      | ⟨0, _⟩ => rfl
      | ⟨1, _⟩ => rfl
      | ⟨2, _⟩ => rfl
    rw [hsi]
    rfl
  | ⟨1, _⟩ =>
    show (gridDims N C R Q wf).start (ix2 r q) idx 1 + (gridDims N C R Q wf).batchCoord (ix2 r q) 1
      + (gridDims N C R Q wf).offCoord (ix2 r q) 1 = _
    rw [GatherDims.batchCoord_eq_zero _ _ _ List.not_mem_nil,
      GatherDims.offCoord_eq_zero _ _ _ (fun h => ((GatherDims.mem_sKept _ _).mp h).1 (show (1 : Fin 2) ∈ [(0 : Fin 2), 1] from List.mem_cons_of_mem _ List.mem_cons_self))]
    simp only [Nat.add_zero]
    unfold GatherDims.start
    rw [dif_pos (show (1 : Fin 2) ∈ (gridDims N C R Q wf).startIndexMap from (show (1 : Fin 2) ∈ [(0 : Fin 2), 1] from List.mem_cons_of_mem _ List.mem_cons_self))]
    have hsi : (gridDims N C R Q wf).siIdx (ix2 r q) ⟨List.idxOf (1 : Fin 2) (gridDims N C R Q wf).startIndexMap,
        List.idxOf_lt_length_iff.2 (show (1 : Fin 2) ∈ [(0 : Fin 2), 1] from List.mem_cons_of_mem _ List.mem_cons_self)⟩ = ix3 r q (1 : Fin 2) := by
      funext b; refine Fin.ext ?_
      match b with
      | ⟨0, _⟩ => rfl
      | ⟨1, _⟩ => rfl
      | ⟨2, _⟩ => rfl
    rw [hsi]
    rfl

end Idealize.ShloMosaic.GatherGrid2

end
-- ==== Proof.LibRealValued.lean ====
/-
  Extended reals that are real numbers.

  On the extended reals the laws that cancel or distribute fail at the infinities, so a value proof that needs one
  first shows that the quantities involved are real. This file has the predicate "is a real number", its closure under
  the operations float programs are read with (sum, product, negation, maximum, absolute value, finite sums, a quotient
  by a nonzero real), and two uses: adding a real v to (q − v) gives q, for every extended real q (a straight-through
  quantisation step "v + (q − v)" returns q); and an entry whose absolute value compares below +∞, as a finiteness
  precondition states it, is a real number.
-/
import Idealize.ShloMosaic.PureOps.Ideal

noncomputable section

namespace Cert.LibRealValued

open Idealize.ShloMosaic

/-- An extended real that is a real number. -/
def IsReal (a : EReal) : Prop := ∃ r : ℝ, a = (r : EReal)

/-- The inclusion of the reals preserves maxima. -/
theorem coe_max (r s : ℝ) : ((Max.max r s : ℝ) : EReal) = Max.max (r : EReal) (s : EReal) :=
  EReal.coe_strictMono.monotone.map_max

theorem IsReal.coe (r : ℝ) : IsReal (r : EReal) := ⟨r, rfl⟩

theorem IsReal.add {a b : EReal} : IsReal a → IsReal b → IsReal (a + b)
  | ⟨r, hr⟩, ⟨s, hs⟩ => ⟨r + s, by rw [hr, hs, EReal.coe_add]⟩

theorem IsReal.mul {a b : EReal} : IsReal a → IsReal b → IsReal (a * b)
  | ⟨r, hr⟩, ⟨s, hs⟩ => ⟨r * s, by rw [hr, hs, EReal.coe_mul]⟩

theorem IsReal.neg {a : EReal} : IsReal a → IsReal (-a)
  | ⟨r, hr⟩ => ⟨-r, by rw [hr, EReal.coe_neg]⟩

theorem IsReal.max {a b : EReal} : IsReal a → IsReal b → IsReal (Max.max a b)
  | ⟨r, hr⟩, ⟨s, hs⟩ => ⟨Max.max r s, by rw [hr, hs, coe_max]⟩

/-- The absolute value, as the ideal reading of a float absolute value spells it. -/
theorem IsReal.abs {a : EReal} (h : IsReal a) : IsReal (Max.max a (-a)) := h.max h.neg

/-- A finite sum of reals is real. -/
theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem IsReal.lt_top {a : EReal} : IsReal a → a < ⊤
  | ⟨r, hr⟩ => hr ▸ EReal.coe_lt_top r

/-- A quotient by a nonzero real is real. -/
theorem IsReal.div {a : EReal} {y : ℝ} (ha : IsReal a) (hy : y ≠ 0) : IsReal (Ideal.div a (y : EReal)) := by
  rw [Ideal.div_coe hy]; exact ha.mul ⟨_, rfl⟩

/-- Adding a real number to "q minus that number" gives q, for any extended real q. -/
theorem add_sub_cancel_real {a : EReal} (ha : IsReal a) (q : EReal) : a + (q - a) = q := by
  obtain ⟨r, rfl⟩ := ha
  induction q using EReal.rec with
  | bot => simp
  | top => simp
  | coe s => rw [← EReal.coe_sub, ← EReal.coe_add]; congr 1; ring

/-- An f32 entry whose absolute value compares below +∞ (the comparison a finiteness precondition makes, at the ideal
    values) is a real number. -/
theorem real_of_abs_lt_inf (a : Ideal .f32)
    (h : FloatOps.cmpf .olt (FloatOps.hostAbsf a) (FloatOps.ofBits (F := Ideal) .f32 0x7F800000#32) = 1#1) : IsReal a := by
  have htop : Ideal.ofBits .f32 0x7F800000#32 = ⊤ := by simp [Ideal.ofBits, Ideal.ieee]
  change Ideal.cmp .olt (Max.max (a : EReal) (-(a : EReal))) (Ideal.ofBits .f32 0x7F800000#32) = 1#1 at h
  rw [htop] at h
  unfold Ideal.cmp at h
  have hlt : Max.max (a : EReal) (-(a : EReal)) < ⊤ := by
    by_contra hn
    simp [hn] at h
  rw [max_lt_iff] at hlt
  induction a using EReal.rec with
  | bot => simp at hlt
  | top => simp at hlt
  | coe r => exact ⟨r, rfl⟩

end Cert.LibRealValued

end
-- ==== Proof.RefRead.lean ====
/-
  The reference's result, read at an index, is the layer function.

  The column index the reference computes for column o — o mod 1024, made non-negative the way jax spells python's
  modulo — is o itself, so the gathered input is the input. At entry (r, o), with x = X[r, o]: the SiLU, the grid
  coordinate t, the integer segment n and the fractional part f are the entry formula's; the two-component start
  index of the first coefficient gather is (o, n) and of the second (o, n + 1), each component wrapped if negative
  and clamped into its axis, so the gathers read C[o, n] and C[o, n + 1]; the weights' two columns and the bias,
  broadcast down the rows, are W[o, 0], W[o, 1] and B[o]. This is the reference's entry formula, which on real
  inputs and coefficients is the layer function's.
-/
import proofs.«165169_j1108101562900_2_alg».proof.Proof.RefTerm
import proofs.«165169_j1108101562900_2_alg».proof.Proof.SpecLaw
import proofs.«165169_j1108101562900_2_alg».proof.Proof.LibGatherCols
import proofs.«165169_j1108101562900_2_alg».proof.Proof.LibGatherGrid2
import proofs.«165169_j1108101562900_2_alg».proof.Proof.LibRealValued
import Idealize.ShloMosaic.Lib.Pipeline.Value

noncomputable section

namespace Cert.ReferenceIdeal.RefRead

open Cert.ReferenceIdeal Cert.ReferenceIdeal.Gen Cert.ReferenceIdeal.RefTerm
open Idealize.ShloMosaic Idealize.ShloMosaic.ValueIdx Cert.Kan Cert.LibRealValued

variable {α : Type}

/-! ## The layout operations at an index -/

/-- One row broadcast down 8192 rows: entry (r, o) is the row's entry (0, o). -/
theorem row_to_grid (v : S1x1024.Idx → α) (r : Fin 8192) (o : Fin 1024) :
    broadcastInDim S8192x1024 ![0, 1] bcast_S1x1024_S8192x1024_0_1 v (ix2 r o) = v (ix2 (0 : Fin 1) o) := by
  unfold broadcastInDim
  refine congrArg v (funext fun a => ?_)
  match a with
  | ⟨0, _⟩ => rfl
  | ⟨1, _⟩ => rfl

/-- A vector as one row: entry (0, o) is the vector's entry o. -/
theorem vec_to_row (v : S1024.Idx → α) (z : Fin 1) (o : Fin 1024) :
    broadcastInDim S1x1024 ![1] bcast_S1024_S1x1024_1 v (ix2 z o) = v (ix1 o) := by
  unfold broadcastInDim
  refine congrArg v (funext fun a => ?_)
  match a with
  | ⟨0, _⟩ => rfl

/-- A vector as one column: entry (o, 0) is the vector's entry o. -/
theorem vec_to_col (v : S1024.Idx → α) (o : Fin 1024) (z : Fin 1) :
    broadcastInDim S1024x1 ![0] bcast_S1024_S1024x1_0 v (ix2 o z) = v (ix1 o) := by
  unfold broadcastInDim
  refine congrArg v (funext fun a => ?_)
  match a with
  | ⟨0, _⟩ => rfl

/-- A matrix given a trailing unit axis: entry (r, o, 0) is the matrix's entry (r, o). -/
theorem grid_to_last (v : S8192x1024.Idx → α) (r : Fin 8192) (o : Fin 1024) (z : Fin 1) :
    broadcastInDim S8192x1024x1 ![0, 1] bcast_S8192x1024_S8192x1024x1_0_1 v (ix3 r o z) = v (ix2 r o) := by
  unfold broadcastInDim
  refine congrArg v (funext fun a => ?_)
  match a with
  | ⟨0, _⟩ => rfl
  | ⟨1, _⟩ => rfl

/-- Column 0 of a two-column matrix, as a one-column matrix. -/
theorem col0_slice (W : S1024x2.Idx → α) (o : Fin 1024) (z : Fin 1) :
    extractStridedSlice S1024x1 ![0, 0] W slices_S1024x2_S1024x1_0_0 (ix2 o z) = W (ix2 o (0 : Fin 2)) := by
  unfold extractStridedSlice
  refine congrArg W (funext fun a => Fin.ext ?_)
  have hz : z.val = 0 := by have := z.isLt; omega
  match a with
  | ⟨0, _⟩ => show 0 + o.val = o.val; omega
  | ⟨1, _⟩ => show 0 + z.val = 0; omega

/-- Column 1 of a two-column matrix, as a one-column matrix. -/
theorem col1_slice (W : S1024x2.Idx → α) (o : Fin 1024) (z : Fin 1) :
    extractStridedSlice S1024x1 ![0, 1] W slices_S1024x2_S1024x1_0_1 (ix2 o z) = W (ix2 o (1 : Fin 2)) := by
  unfold extractStridedSlice
  refine congrArg W (funext fun a => Fin.ext ?_)
  have hz : z.val = 0 := by have := z.isLt; omega
  match a with
  | ⟨0, _⟩ => show 0 + o.val = o.val; omega
  | ⟨1, _⟩ => show 1 + z.val = 1; omega

/-- A one-column matrix as a vector. -/
theorem col_flat (v : S1024x1.Idx → α) (o : Fin 1024) :
    shapeCast S1024 v shapeCasts_S1024x1_S1024 (ix1 o) = v (ix2 o (0 : Fin 1)) :=
  shapeCast_apply v _ _ _ (by
    rw [Shape.rowMajor_val_two, Shape.rowMajor_val_one]
    show o.val * 1 + 0 = o.val
    omega)

/-- Two arrays with a trailing unit axis set side by side along it: component 0 is the first's entry. -/
theorem pair_fst (a b : IVec S8192x1024x1 32) (r : Fin 8192) (o : Fin 1024) :
    pairLast a b (ix3 r o (0 : Fin 2)) = a (ix3 r o (0 : Fin 1)) := by
  show a _ = a _
  refine congrArg a (funext fun c => ?_)
  match c with
  | ⟨0, _⟩ => rfl
  | ⟨1, _⟩ => rfl
  | ⟨2, _⟩ => rfl

/-- … and component 1 is the second's entry. -/
theorem pair_snd (a b : IVec S8192x1024x1 32) (r : Fin 8192) (o : Fin 1024) :
    pairLast a b (ix3 r o (1 : Fin 2)) = b (ix3 r o (0 : Fin 1)) := by
  show b _ = b _
  refine congrArg b (funext fun c => ?_)
  match c with
  | ⟨0, _⟩ => rfl
  | ⟨1, _⟩ => rfl
  | ⟨2, _⟩ => rfl

/-! ## The column and row indices: o mod 1024, made non-negative, is o -/

/-- The column the input gather reads for result column o is o (decided over the 1024 columns). -/
theorem col_row : ∀ o : Fin 1024, GatherAxis0.row 1024 (by decide) (v_main_v6 (ix1 o)) = o := by decide +kernel

/-- The edge the first coefficient gather reads for result column o is o. -/
theorem edge_row : ∀ o : Fin 1024, GatherAxis0.row 1024 (by decide) (v_main_v26 (ix2 (0 : Fin 1) o)) = o := by decide +kernel

/-- The edge the second coefficient gather reads for result column o is o. -/
theorem edge_row' : ∀ o : Fin 1024, GatherAxis0.row 1024 (by decide) (v_main_v43 (ix2 (0 : Fin 1) o)) = o := by decide +kernel

/-! ## The stages at an entry -/

section Stages

variable (X : FVec Ideal S8192x1024 .f32) (C : FVec Ideal S1024x5 .f32) (W : FVec Ideal S1024x2 .f32) (B : FVec Ideal S1024 .f32)

/-- The gathered input is the input. -/
theorem gathered_eq : v_main_v8 X = X := by
  funext i
  obtain ⟨r, o, rfl⟩ : ∃ (r : Fin 8192) (o : Fin 1024), i = ix2 r o := ⟨i 0, i 1, eq_ix2 i⟩
  unfold v_main_v8
  show Host.gather (GatherCols.colsDims 8192 1024 1024 gather_S8192x1024_S1024x1_S8192x1024_0_1_n_n_1_1_81921_wf) X v_main_v7 (ix2 r o) = _
  rw [GatherCols.gather_cols_apply (by decide)]
  unfold v_main_v7
  rw [vec_to_col, col_row]

/-- SiLU. -/
theorem silu_at (i : S8192x1024.Idx) :
    v_main_v9 X i = v_main_v8 X i * Ideal.div (Ideal.ofBits .f32 0x3F800000#32) (Ideal.ofBits .f32 0x3F800000#32 + Ideal.exp (-(v_main_v8 X i))) := rfl

/-- The grid coordinate. -/
theorem t_at (i : S8192x1024.Idx) : v_main_v14 X i = tOf (v_main_v8 X i) := rfl

/-- The integer segment. -/
theorem seg_at (i : S8192x1024.Idx) : v_main_v17 X i = segI (v_main_v8 X i) := rfl

/-- The fractional part. -/
theorem frac_at (i : S8192x1024.Idx) : v_main_v19 X i = fracOf (v_main_v8 X i) := rfl

/-- The column of the first coefficient gather: the segment, wrapped if negative. -/
theorem k0_at (i : S8192x1024.Idx) : v_main_v31 X i = wrap5 (segI (v_main_v8 X i)) := rfl

/-- The column of the second coefficient gather: the segment plus one, wrapped if negative. -/
theorem k1_at (i : S8192x1024.Idx) : v_main_v48 X i = wrap5 (IntOp.addi (segI (v_main_v8 X i)) 1#32) := rfl

/-- The first coefficient gather reads C[o, n]. -/
theorem c0_at (r : Fin 8192) (o : Fin 1024) :
    v_main_v36 X C (ix2 r o) = C (ix2 o (GatherAxis0.row 5 (by decide) (wrap5 (segI (v_main_v8 X (ix2 r o)))))) := by
  unfold v_main_v36
  show Host.gather (GatherGrid2.gridDims 1024 5 8192 1024 gather_S1024x5_S8192x1024x2_S8192x1024_n_01_n_n_01_2_11_wf) C (v_main_v35 X) (ix2 r o) = _
  rw [GatherGrid2.gather_grid_apply (by decide) (by decide)]
  unfold v_main_v35
  rw [pair_fst, pair_snd]
  unfold v_main_v33 v_main_v34
  rw [grid_to_last, grid_to_last]
  unfold v_main_v32
  rw [row_to_grid, edge_row, k0_at]

/-- The second coefficient gather reads C[o, n + 1]. -/
theorem c1_at (r : Fin 8192) (o : Fin 1024) :
    v_main_v53 X C (ix2 r o) = C (ix2 o (GatherAxis0.row 5 (by decide) (wrap5 (IntOp.addi (segI (v_main_v8 X (ix2 r o))) 1#32)))) := by
  unfold v_main_v53
  show Host.gather (GatherGrid2.gridDims 1024 5 8192 1024 gather_S1024x5_S8192x1024x2_S8192x1024_n_01_n_n_01_2_11_wf) C (v_main_v52 X) (ix2 r o) = _
  rw [GatherGrid2.gather_grid_apply (by decide) (by decide)]
  unfold v_main_v52
  rw [pair_fst, pair_snd]
  unfold v_main_v50 v_main_v51
  rw [grid_to_last, grid_to_last]
  unfold v_main_v49
  rw [row_to_grid, edge_row', k1_at]

/-- The first weight column broadcast down the rows. -/
theorem w0_at (r : Fin 8192) (o : Fin 1024) : v_main_v62 W (ix2 r o) = W (ix2 o (0 : Fin 2)) := by
  unfold v_main_v62 v_main_v61 v_main_v60 v_main_v59
  dsimp only
  rw [row_to_grid, vec_to_row, col_flat, col0_slice]

/-- The second weight column broadcast down the rows. -/
theorem w1_at (r : Fin 8192) (o : Fin 1024) : v_main_v67 W (ix2 r o) = W (ix2 o (1 : Fin 2)) := by
  unfold v_main_v67 v_main_v66 v_main_v65 v_main_v64
  dsimp only
  rw [row_to_grid, vec_to_row, col_flat, col1_slice]

/-- The bias broadcast down the rows. -/
theorem b_at (r : Fin 8192) (o : Fin 1024) : v_main_v71 B (ix2 r o) = B (ix1 o) := by
  unfold v_main_v71 v_main_v70
  rw [row_to_grid, vec_to_row]

/-- THE REFERENCE'S ENTRY (r, o) is its entry formula at X[r, o], edge o's coefficients, weights and bias. -/
theorem out_at (r : Fin 8192) (o : Fin 1024) :
    v_main_v72 X C W B (ix2 r o)
      = cellR (X (ix2 r o)) (fun k => C (ix2 o k)) (W (ix2 o (0 : Fin 2))) (W (ix2 o (1 : Fin 2))) (B (ix1 o)) := by
  show (v_main_v9 X (ix2 r o) * v_main_v62 W (ix2 r o)
      + (v_main_v36 X C (ix2 r o) * (Ideal.ofBits .f32 0x3F800000#32 - v_main_v19 X (ix2 r o))
          + v_main_v53 X C (ix2 r o) * v_main_v19 X (ix2 r o)) * v_main_v67 W (ix2 r o))
      + v_main_v71 B (ix2 r o) = _
  rw [silu_at, frac_at, c0_at, c1_at, w0_at, w1_at, b_at, gathered_eq]
  rfl

end Stages

/-- THE REFERENCE'S RESULT IS THE LAYER FUNCTION when the input and the coefficients are real numbers. -/
theorem out_eq (X : FVec Ideal S8192x1024 .f32) (C : FVec Ideal S1024x5 .f32) (W : FVec Ideal S1024x2 .f32) (B : FVec Ideal S1024 .f32)
    (hX : ∀ i, IsReal (X i)) (hC : ∀ i, IsReal (C i)) : v_main_v72 X C W B = Kan.G X C W B := by
  funext i
  obtain ⟨r, o, rfl⟩ : ∃ (r : Fin 8192) (o : Fin 1024), i = ix2 r o := ⟨i 0, i 1, eq_ix2 i⟩
  rw [out_at, Kan.G_apply]
  obtain ⟨x, hx⟩ := hX (ix2 r o)
  choose cr hcr using fun k : Fin 5 => hC (ix2 o k)
  rw [hx, show (fun k : Fin 5 => C (ix2 o k)) = fun k => ((cr k : ℝ) : EReal) from funext hcr,
    hcr 0, hcr 1, hcr 2, hcr 3, hcr 4]
  exact cellR_eq_cellK x cr _ _ _

end Cert.ReferenceIdeal.RefRead

end
-- ==== Proof.Finite.lean ====
/-
  The precondition makes the input and the coefficients real numbers.

  The precondition is the conjunction of four tests, one per argument array: every entry's absolute value is below
  +∞. An "all" is a reduction by "and" from true, which is true only if every entry's test is; and an extended
  real whose absolute value is below +∞ is a real number. Only the first two conjuncts are used: the input's and
  the coefficients' (the weights and the bias enter both programs the same way, so nothing is asked of them).
-/
import proofs.«165169_j1108101562900_2_alg».proof.Pre_finite_inputs
import proofs.«165169_j1108101562900_2_alg».proof.Proof.Gen.Pre_finite_inputs
import proofs.«165169_j1108101562900_2_alg».proof.Proof.LibRealValued
import Idealize.ShloMosaic.Lib.ReduceAll
import Idealize.ShloMosaic.Lib.ValueIdx

noncomputable section

namespace Cert.Pre_finite_inputs.Finite

open Cert.Pre_finite_inputs Idealize.ShloMosaic Idealize.ShloMosaic.ValueIdx Cert.LibRealValued

variable [Cert.Pre_finite_inputs.Facts]

instance : Subsingleton S_.Idx := ⟨fun _ _ => funext fun d => d.elim0⟩

/-- Under the precondition every entry of the input and every coefficient is a real number. -/
theorem reals_of_pre (X : FVec Ideal S8192x1024 .f32) (C : FVec Ideal S1024x5 .f32) (W : FVec Ideal S1024x2 .f32)
    (B : FVec Ideal S1024 .f32) (h : fn (F := Ideal) X C W B = fun _ => 1#1) :
    (∀ i, IsReal (X i)) ∧ (∀ i, IsReal (C i)) := by
  have h0 := congrFun h ix0
  dsimp only [fn, fn_part1] at h0
  obtain ⟨h13, -⟩ := IntOp.andi_eq_one.1 h0
  obtain ⟨h8, -⟩ := IntOp.andi_eq_one.1 h13
  obtain ⟨h3, h7⟩ := IntOp.andi_eq_one.1 h8
  refine ⟨fun i => ?_, fun i => ?_⟩
  · exact real_of_abs_lt_inf (X i) (Host.reduce_andi_all _ _ _ _ _ h3 i)
  · exact real_of_abs_lt_inf (C i) (Host.reduce_andi_all _ _ _ _ _ h7 i)

end Cert.Pre_finite_inputs.Finite

end
-- ==== Proof.lean ====
/-
  The certificate: a KAN layer (per-edge SiLU + linear B-spline + a 2 → 1 linear combination) as a kernel against
  its reference.

  Both programs compute, for every entry (r, o) of the 8192 × 1024 result,
      silu(X[r, o]) · W[o, 0] + spline_o(X[r, o]) · W[o, 1] + B[o],
  where spline_o interpolates edge o's five coefficients linearly on the knots -1, -1/2, 0, 1/2, 1.
  The kernel works on 16 blocks of 512 rows, selects the coefficient cₙ and the difference cₙ₊₁ - cₙ of the segment
  n by four comparisons and forms cₙ + f · (cₙ₊₁ - cₙ); the reference gathers the input at the column index
  o mod 1024 (which is o), turns the segment into an integer, gathers cₙ and cₙ₊₁ at it and forms
  cₙ · (1 - f) + cₙ₊₁ · f. At the ideal values the two results are the same function of the four argument arrays
  (Spec.lean's `G`): the kernel's by reading its blocks back (KernelValue.lean), the reference's by reading its
  130 operations at an index (RefRun, RefTerm, RefFold, RefRead), the two interpolation formulas by the distributive
  law on real numbers (SpecLaw.lean) — which is where the precondition, that the input and the coefficients are
  finite, is used (Finite.lean). The three programs' frames are their runs with the results dropped, and the
  idealization rewrote nothing, so there is nothing to preserve.
-/
import proofs.«165169_j1108101562900_2_alg».proof.Defs
import proofs.«165169_j1108101562900_2_alg».proof.Proof.Gen.Kernel
import proofs.«165169_j1108101562900_2_alg».proof.Proof.Gen.Kernel.Skeleton
import proofs.«165169_j1108101562900_2_alg».proof.Proof.Gen.Kernel.Launch
import proofs.«165169_j1108101562900_2_alg».proof.Proof.Gen.Kernel.Points
import proofs.«165169_j1108101562900_2_alg».proof.Proof.Gen.Kernel.Frame
import proofs.«165169_j1108101562900_2_alg».proof.Proof.Gen.KernelIdeal
import proofs.«165169_j1108101562900_2_alg».proof.Proof.Gen.KernelIdeal.Skeleton
import proofs.«165169_j1108101562900_2_alg».proof.Proof.Gen.KernelIdeal.Launch
import proofs.«165169_j1108101562900_2_alg».proof.Proof.Gen.KernelIdeal.Points
import proofs.«165169_j1108101562900_2_alg».proof.Proof.Gen.KernelIdeal.Frame
import proofs.«165169_j1108101562900_2_alg».proof.Proof.Gen.ReferenceIdeal
import proofs.«165169_j1108101562900_2_alg».proof.Proof.Gen.Pre_finite_inputs
import proofs.«165169_j1108101562900_2_alg».proof.Proof.KernelValue
import proofs.«165169_j1108101562900_2_alg».proof.Proof.RefFold
import proofs.«165169_j1108101562900_2_alg».proof.Proof.RefRead
import proofs.«165169_j1108101562900_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs, and its arguments end unchanged. -/
theorem frame_k : Cert.frame_Kernel := fun m ρ _ => Cert.Kernel.Gen.frame m ρ

/-- The idealized kernel runs, and its arguments end unchanged. -/
theorem frame_ki : Cert.frame_KernelIdeal := fun m ρ _ => Cert.KernelIdeal.Gen.frame m ρ

/-- The reference runs, and its arguments end unchanged: no operation of its line writes an argument buffer. -/
theorem frame_ri : Cert.frame_ReferenceIdeal := fun m ρ _ =>
  (θ_run Cert.ReferenceIdeal.defs _ _).mono
    (fun _ h c => ⟨(h c Cert.ReferenceIdeal.main_arg0).trans (Cert.ReferenceIdeal.RefFold.arg0_eq _),
      (h c Cert.ReferenceIdeal.main_arg1).trans (Cert.ReferenceIdeal.RefFold.arg1_eq _),
      (h c Cert.ReferenceIdeal.main_arg2).trans (Cert.ReferenceIdeal.RefFold.arg2_eq _),
      (h c Cert.ReferenceIdeal.main_arg3).trans (Cert.ReferenceIdeal.RefFold.arg3_eq _)⟩)
    (Cert.ReferenceIdeal.RefRun.run_main (F := Ideal) m ρ)

/-- Both idealized programs, from memories that agree on the arguments, end with the layer function of the
    arguments in their result: the kernel by its blocks, the reference by its operations read at an index, the
    input and the coefficients real numbers by the precondition. -/
theorem algebraic : Cert.algebraic_KernelIdeal_ReferenceIdeal := by
  intro m ρ m' ρ' hpre hagree
  refine ⟨fun c => Cert.KernelIdeal.KValue.layer m c, Cert.KernelIdeal.KValue.run m ρ, ?_⟩
  refine (θ_run Cert.ReferenceIdeal.defs _ _).mono (fun r h c => ?_)
    (Cert.ReferenceIdeal.RefRun.run_main (F := Ideal) m' ρ')
  obtain ⟨hX, hC⟩ := Cert.Pre_finite_inputs.Finite.reals_of_pre _ _ _ _ (hpre c)
  refine ⟨?_, (h c Cert.ReferenceIdeal.main_arg0).trans (Cert.ReferenceIdeal.RefFold.arg0_eq _),
    (h c Cert.ReferenceIdeal.main_arg1).trans (Cert.ReferenceIdeal.RefFold.arg1_eq _),
    (h c Cert.ReferenceIdeal.main_arg2).trans (Cert.ReferenceIdeal.RefFold.arg2_eq _),
    (h c Cert.ReferenceIdeal.main_arg3).trans (Cert.ReferenceIdeal.RefFold.arg3_eq _)⟩
  refine (h c Cert.ReferenceIdeal.main_v72).trans ((Cert.ReferenceIdeal.RefFold.out_eq _).trans ?_)
  show Cert.ReferenceIdeal.RefTerm.v_main_v72 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) = _
  rw [(hagree c).1, (hagree c).2.1, (hagree c).2.2.1, (hagree c).2.2.2]
  exact Cert.ReferenceIdeal.RefRead.out_eq _ _ _ _ hX hC

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
